-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x256x256 : Shape := ⟨4, ![64, 8, 256, 256]⟩
abbrev S64x1x256x256 : Shape := ⟨4, ![64, 1, 256, 256]⟩
abbrev S_ : Shape := ⟨0, ![]⟩
abbrev S64x256x256 : Shape := ⟨3, ![64, 256, 256]⟩

class Facts : Prop where
  bcast_S_S64x8x256x256 : S_.BroadcastsInDim S64x8x256x256 (![] : Fin 0 → Fin S64x8x256x256.rank)
  reducesTo_S64x8x256x256_S_d0_1_2_3 : S64x8x256x256.ReducesTo [0, 1, 2, 3] S_
  h_S_ : 0 < S_.numel
  bcast_S_S64x1x256x256 : S_.BroadcastsInDim S64x1x256x256 (![] : Fin 0 → Fin S64x1x256x256.rank)
  reducesTo_S64x1x256x256_S_d0_1_2_3 : S64x1x256x256.ReducesTo [0, 1, 2, 3] S_
  reducesTo_S64x8x256x256_S64x256x256_d1 : S64x8x256x256.ReducesTo [1] S64x256x256
  bcast_S_S64x256x256 : S_.BroadcastsInDim S64x256x256 (![] : Fin 0 → Fin S64x256x256.rank)
  reducesTo_S64x256x256_S_d0_1_2 : S64x256x256.ReducesTo [0, 1, 2] S_

variable [Facts]

def fn_part1 {F : FTy → Type} [FloatOps F] (main_v13 : IVec S_ 1) (main_v15 : FVec F S64x256x256 .f32) (main_cst_5 : FVec F S_ .f32) : IVec S_ 1 :=
  let main_v16 : FVec F S64x256x256 .f32 := broadcastInDim S64x256x256 ![] bcast_S_S64x256x256 main_cst_5
  let main_v17 : IVec S64x256x256 1 := cmpf .ogt main_v15 main_v16
  let main_c_6 : IVec S_ 1 := constantI S_ 1 1#1
  let main_v18 : IVec S_ 1 := (fun x v => Host.reduce IntOp.andi x v reducesTo_S64x256x256_S_d0_1_2 h_S_) main_v17 main_c_6
  let main_v19 : IVec S_ 1 := andi main_v13 main_v18
  main_v19

def fn {F : FTy → Type} [FloatOps F] (main_arg0 : FVec F S64x8x256x256 .f32) (main_arg1 : FVec F S64x1x256x256 .f32) (main_arg2 : FVec F S64x1x256x256 .f32) : IVec S_ 1 :=
  let main_v0 : FVec F S64x8x256x256 .f32 := Host.absf main_arg0
  let main_cst : FVec F S_ .f32 := constant S_ .f32 0x7F800000#32
  let main_v1 : FVec F S64x8x256x256 .f32 := broadcastInDim S64x8x256x256 ![] bcast_S_S64x8x256x256 main_cst
  let main_v2 : IVec S64x8x256x256 1 := cmpf .olt main_v0 main_v1
  let main_c : IVec S_ 1 := constantI S_ 1 1#1
  let main_v3 : IVec S_ 1 := (fun x v => Host.reduce IntOp.andi x v reducesTo_S64x8x256x256_S_d0_1_2_3 h_S_) main_v2 main_c
  let main_v4 : FVec F S64x1x256x256 .f32 := Host.absf main_arg1
  let main_cst_0 : FVec F S_ .f32 := constant S_ .f32 0x7F800000#32
  let main_v5 : FVec F S64x1x256x256 .f32 := broadcastInDim S64x1x256x256 ![] bcast_S_S64x1x256x256 main_cst_0
  let main_v6 : IVec S64x1x256x256 1 := cmpf .olt main_v4 main_v5
  let main_c_1 : IVec S_ 1 := constantI S_ 1 1#1
  let main_v7 : IVec S_ 1 := (fun x v => Host.reduce IntOp.andi x v reducesTo_S64x1x256x256_S_d0_1_2_3 h_S_) main_v6 main_c_1
  let main_v8 : IVec S_ 1 := andi main_v3 main_v7
  let main_v9 : FVec F S64x1x256x256 .f32 := Host.absf main_arg2
  let main_cst_2 : FVec F S_ .f32 := constant S_ .f32 0x7F800000#32
  let main_v10 : FVec F S64x1x256x256 .f32 := broadcastInDim S64x1x256x256 ![] bcast_S_S64x1x256x256 main_cst_2
  let main_v11 : IVec S64x1x256x256 1 := cmpf .olt main_v9 main_v10
  let main_c_3 : IVec S_ 1 := constantI S_ 1 1#1
  let main_v12 : IVec S_ 1 := (fun x v => Host.reduce IntOp.andi x v reducesTo_S64x1x256x256_S_d0_1_2_3 h_S_) main_v11 main_c_3
  let main_v13 : IVec S_ 1 := andi main_v8 main_v12
  let main_v14 : FVec F S64x8x256x256 .f32 := Host.absf main_arg0
  let main_cst_4 : FVec F S_ .f32 := constant S_ .f32 0x00000000#32
  let main_v15 : FVec F S64x256x256 .f32 := (fun x v => Host.reduceAdd x v reducesTo_S64x8x256x256_S64x256x256_d1 h_S_) main_v14 main_cst_4
  let main_cst_5 : FVec F S_ .f32 := constant S_ .f32 0x00000000#32
  fn_part1 (F := F) main_v13 main_v15 main_cst_5
-- ==== Kernel.lean ====
abbrev S64x8x256x256 : Shape := ⟨4, ![64, 8, 256, 256]⟩
abbrev S64x1x256x256 : Shape := ⟨4, ![64, 1, 256, 256]⟩
abbrev S4x8x256x256 : Shape := ⟨4, ![4, 8, 256, 256]⟩
abbrev S4x1x256x256 : Shape := ⟨4, ![4, 1, 256, 256]⟩
abbrev S4x256x256 : Shape := ⟨3, ![4, 256, 256]⟩
abbrev S4x256x1 : Shape := ⟨3, ![4, 256, 1]⟩
abbrev S4x256x255 : Shape := ⟨3, ![4, 256, 255]⟩
abbrev S4x1x256 : Shape := ⟨3, ![4, 1, 256]⟩
abbrev S4x255x256 : Shape := ⟨3, ![4, 255, 256]⟩

abbrev nBuf : Space → Nat
  | .hbm => 4
  | .vmem => 8
  | .smem => 0
  | _ => 0

abbrev bufTy : (tb : Table) → Fin (tcTables nBuf tb) → BufTy
  | .hbm, ⟨0, _⟩ => ⟨S64x8x256x256, .f32⟩
  | .hbm, ⟨1, _⟩ => ⟨S64x1x256x256, .f32⟩
  | .hbm, ⟨2, _⟩ => ⟨S64x1x256x256, .f32⟩
  | .hbm, ⟨3, _⟩ => ⟨S64x1x256x256, .f32⟩
  | .local _ .vmem, ⟨0, _⟩ => ⟨S4x8x256x256, .f32⟩
  | .local _ .vmem, ⟨1, _⟩ => ⟨S4x8x256x256, .f32⟩
  | .local _ .vmem, ⟨2, _⟩ => ⟨S4x1x256x256, .f32⟩
  | .local _ .vmem, ⟨3, _⟩ => ⟨S4x1x256x256, .f32⟩
  | .local _ .vmem, ⟨4, _⟩ => ⟨S4x1x256x256, .f32⟩
  | .local _ .vmem, ⟨5, _⟩ => ⟨S4x1x256x256, .f32⟩
  | .local _ .vmem, ⟨6, _⟩ => ⟨S4x1x256x256, .f32⟩
  | .local _ .vmem, ⟨7, _⟩ => ⟨S4x1x256x256, .f32⟩
  | _, _ => ⟨S64x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4x1x256x256_S4x1x256x256_0_0_0_0 : ∀ a, (![0, 0, 0, 0] : Fin 4 → Nat) a + S4x1x256x256.size a ≤ S4x1x256x256.size a
  h_S4x1x256x256 : 0 < S4x1x256x256.numel
  shapeCasts_S4x1x256x256_S4x256x256 : S4x1x256x256.ShapeCasts S4x256x256
  inb_S4x8x256x256_S4x1x256x256_0_0_0_0 : ∀ a, (![0, 0, 0, 0] : Fin 4 → Nat) a + S4x1x256x256.size a ≤ S4x8x256x256.size a
  inb_S4x8x256x256_S4x1x256x256_0_1_0_0 : ∀ a, (![0, 1, 0, 0] : Fin 4 → Nat) a + S4x1x256x256.size a ≤ S4x8x256x256.size a
  inb_S4x8x256x256_S4x1x256x256_0_2_0_0 : ∀ a, (![0, 2, 0, 0] : Fin 4 → Nat) a + S4x1x256x256.size a ≤ S4x8x256x256.size a
  inb_S4x8x256x256_S4x1x256x256_0_3_0_0 : ∀ a, (![0, 3, 0, 0] : Fin 4 → Nat) a + S4x1x256x256.size a ≤ S4x8x256x256.size a
  inb_S4x8x256x256_S4x1x256x256_0_4_0_0 : ∀ a, (![0, 4, 0, 0] : Fin 4 → Nat) a + S4x1x256x256.size a ≤ S4x8x256x256.size a
  inb_S4x8x256x256_S4x1x256x256_0_5_0_0 : ∀ a, (![0, 5, 0, 0] : Fin 4 → Nat) a + S4x1x256x256.size a ≤ S4x8x256x256.size a
  inb_S4x8x256x256_S4x1x256x256_0_6_0_0 : ∀ a, (![0, 6, 0, 0] : Fin 4 → Nat) a + S4x1x256x256.size a ≤ S4x8x256x256.size a
  inb_S4x8x256x256_S4x1x256x256_0_7_0_0 : ∀ a, (![0, 7, 0, 0] : Fin 4 → Nat) a + S4x1x256x256.size a ≤ S4x8x256x256.size a
  slices_S4x256x256_o0_0_1_S4x256x255 : S4x256x256.Slices ![0, 0, 1] S4x256x255
  concatenates_S4x256x255_S4x256x1_S4x256x256_d2 : Shape.Concatenates [S4x256x255, S4x256x1] S4x256x256 2
  slices_S4x256x256_o0_0_0_S4x256x255 : S4x256x256.Slices ![0, 0, 0] S4x256x255
  concatenates_S4x256x1_S4x256x255_S4x256x256_d2 : Shape.Concatenates [S4x256x1, S4x256x255] S4x256x256 2
  slices_S4x256x256_o0_1_0_S4x255x256 : S4x256x256.Slices ![0, 1, 0] S4x255x256
  concatenates_S4x255x256_S4x1x256_S4x256x256_d1 : Shape.Concatenates [S4x255x256, S4x1x256] S4x256x256 1
  slices_S4x256x256_o0_0_0_S4x255x256 : S4x256x256.Slices ![0, 0, 0] S4x255x256
  concatenates_S4x1x256_S4x255x256_S4x256x256_d1 : Shape.Concatenates [S4x1x256, S4x255x256] S4x256x256 1
  shapeCasts_S4x256x256_S4x1x256x256 : S4x256x256.ShapeCasts S4x1x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x256x256.size a ≤ S64x8x256x256.size a
  hwx0_0 : ∀ i : grid0.Coords, EltTy.bits .f32 = 32 ∨ (Rect.block (s := S64x8x256x256) S4x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x256x256.size a ≤ S64x1x256x256.size a
  hwx0_1 : ∀ i : grid0.Coords, EltTy.bits .f32 = 32 ∨ (Rect.block (s := S64x1x256x256) S4x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x256x256.size a ≤ S64x1x256x256.size a
  hwx0_2 : ∀ i : grid0.Coords, EltTy.bits .f32 = 32 ∨ (Rect.block (s := S64x1x256x256) S4x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x256x256.size a ≤ S64x1x256x256.size a
  hwx0_3 : ∀ i : grid0.Coords, EltTy.bits .f32 = 32 ∨ (Rect.block (s := S64x1x256x256) S4x1x256x256.size (cc0_transform_3 i) (hinb0_3 i)).WholeWords (EltTy.packing .f32)

variable [Facts₀]

abbrev win0_0 : Pipeline.Window sig grid0 :=
  Pipeline.Window.ofSpec (Memref.whole main_arg0) S4x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8x256x256 : Shape := ⟨4, ![64, 8, 256, 256]⟩
abbrev S64x1x256x256 : Shape := ⟨4, ![64, 1, 256, 256]⟩
abbrev S_ : Shape := ⟨0, ![]⟩
abbrev S64x256x256 : Shape := ⟨3, ![64, 256, 256]⟩
abbrev S64x4x256x256 : Shape := ⟨4, ![64, 4, 256, 256]⟩
abbrev S64x9x256x256 : Shape := ⟨4, ![64, 9, 256, 256]⟩
abbrev S64x258x258 : Shape := ⟨3, ![64, 258, 258]⟩

abbrev nBuf : Space → Nat
  | .hbm => 178
  | .vmem => 0
  | .smem => 0
  | _ => 0

abbrev hbmTy0_0 (i : Nat) : BufTy := match i % 128 with
  | 0 => ⟨S64x8x256x256, .f32⟩
  | 1 => ⟨S64x1x256x256, .f32⟩
  | 2 => ⟨S64x1x256x256, .f32⟩
  | 3 => ⟨S64x8x256x256, .f32⟩
  | 4 => ⟨S_, .f32⟩
  | 5 => ⟨S64x256x256, .f32⟩
  | 6 => ⟨S64x1x256x256, .f32⟩
  | 7 => ⟨S_, .f32⟩
  | 8 => ⟨S64x256x256, .f32⟩
  | 9 => ⟨S64x1x256x256, .f32⟩
  | 10 => ⟨S64x8x256x256, .f32⟩
  | 11 => ⟨S64x8x256x256, .f32⟩
  | 12 => ⟨S64x4x256x256, .f32⟩
  | 13 => ⟨S_, .f32⟩
  | 14 => ⟨S64x1x256x256, .f32⟩
  | 15 => ⟨S64x1x256x256, .f32⟩
  | 16 => ⟨S64x4x256x256, .f32⟩
  | 17 => ⟨S64x9x256x256, .f32⟩
  | 18 => ⟨S64x256x256, .f32⟩
  | 19 => ⟨S64x256x256, .f32⟩
  | 20 => ⟨S_, .f32⟩
  | 21 => ⟨S64x256x256, .f32⟩
  | 22 => ⟨S_, .i32⟩
  | 23 => ⟨S_, .f32⟩
  | 24 => ⟨S64x258x258, .f32⟩
  | 25 => ⟨S_, .i32⟩
  | 26 => ⟨S_, .i32⟩
  | 27 => ⟨S_, .i32⟩
  | 28 => ⟨S64x256x256, .f32⟩
  | 29 => ⟨S64x1x256x256, .f32⟩
  | 30 => ⟨S64x256x256, .f32⟩
  | 31 => ⟨S64x256x256, .f32⟩
  | 32 => ⟨S_, .i32⟩
  | 33 => ⟨S_, .f32⟩
  | 34 => ⟨S64x258x258, .f32⟩
  | 35 => ⟨S_, .i32⟩
  | 36 => ⟨S_, .i32⟩
  | 37 => ⟨S_, .i32⟩
  | 38 => ⟨S64x256x256, .f32⟩
  | 39 => ⟨S64x256x256, .f32⟩
  | 40 => ⟨S_, .i32⟩
  | 41 => ⟨S_, .f32⟩
  | 42 => ⟨S64x258x258, .f32⟩
  | 43 => ⟨S_, .i32⟩
  | 44 => ⟨S_, .i32⟩
  | 45 => ⟨S_, .i32⟩
  | 46 => ⟨S64x256x256, .f32⟩
  | 47 => ⟨S64x1x256x256, .f32⟩
  | 48 => ⟨S64x256x256, .f32⟩
  | 49 => ⟨S64x256x256, .f32⟩
  | 50 => ⟨S_, .i32⟩
  | 51 => ⟨S_, .f32⟩
  | 52 => ⟨S64x258x258, .f32⟩
  | 53 => ⟨S_, .i32⟩
  | 54 => ⟨S_, .i32⟩
  | 55 => ⟨S_, .i32⟩
  | 56 => ⟨S64x256x256, .f32⟩
  | 57 => ⟨S64x256x256, .f32⟩
  | 58 => ⟨S_, .i32⟩
  | 59 => ⟨S_, .f32⟩
  | 60 => ⟨S64x258x258, .f32⟩
  | 61 => ⟨S_, .i32⟩
  | 62 => ⟨S_, .i32⟩
  | 63 => ⟨S_, .i32⟩
  | 64 => ⟨S64x256x256, .f32⟩
  | 65 => ⟨S64x1x256x256, .f32⟩
  | 66 => ⟨S64x256x256, .f32⟩
  | 67 => ⟨S64x256x256, .f32⟩
  | 68 => ⟨S_, .i32⟩
  | 69 => ⟨S_, .f32⟩
  | 70 => ⟨S64x258x258, .f32⟩
  | 71 => ⟨S_, .i32⟩
  | 72 => ⟨S_, .i32⟩
  | 73 => ⟨S_, .i32⟩
  | 74 => ⟨S64x256x256, .f32⟩
  | 75 => ⟨S64x256x256, .f32⟩
  | 76 => ⟨S_, .i32⟩
  | 77 => ⟨S_, .f32⟩
  | 78 => ⟨S64x258x258, .f32⟩
  | 79 => ⟨S_, .i32⟩
  | 80 => ⟨S_, .i32⟩
  | 81 => ⟨S_, .i32⟩
  | 82 => ⟨S64x256x256, .f32⟩
  | 83 => ⟨S64x1x256x256, .f32⟩
  | 84 => ⟨S64x256x256, .f32⟩
  | 85 => ⟨S64x256x256, .f32⟩
  | 86 => ⟨S_, .i32⟩
  | 87 => ⟨S_, .f32⟩
  | 88 => ⟨S64x258x258, .f32⟩
  | 89 => ⟨S_, .i32⟩
  | 90 => ⟨S_, .i32⟩
  | 91 => ⟨S_, .i32⟩
  | 92 => ⟨S64x256x256, .f32⟩
  | 93 => ⟨S64x256x256, .f32⟩
  | 94 => ⟨S64x1x256x256, .f32⟩
  | 95 => ⟨S64x256x256, .f32⟩
  | 96 => ⟨S64x256x256, .f32⟩
  | 97 => ⟨S_, .i32⟩
  | 98 => ⟨S_, .f32⟩
  | 99 => ⟨S64x258x258, .f32⟩
  | 100 => ⟨S_, .i32⟩
  | 101 => ⟨S_, .i32⟩
  | 102 => ⟨S_, .i32⟩
  | 103 => ⟨S64x256x256, .f32⟩
  | 104 => ⟨S64x256x256, .f32⟩
  | 105 => ⟨S_, .i32⟩
  | 106 => ⟨S_, .f32⟩
  | 107 => ⟨S64x258x258, .f32⟩
  | 108 => ⟨S_, .i32⟩
  | 109 => ⟨S_, .i32⟩
  | 110 => ⟨S_, .i32⟩
  | 111 => ⟨S64x256x256, .f32⟩
  | 112 => ⟨S64x1x256x256, .f32⟩
  | 113 => ⟨S64x256x256, .f32⟩
  | 114 => ⟨S64x256x256, .f32⟩
  | 115 => ⟨S_, .i32⟩
  | 116 => ⟨S_, .f32⟩
  | 117 => ⟨S64x258x258, .f32⟩
  | 118 => ⟨S_, .i32⟩
  | 119 => ⟨S_, .i32⟩
  | 120 => ⟨S_, .i32⟩
  | 121 => ⟨S64x256x256, .f32⟩
  | 122 => ⟨S64x256x256, .f32⟩
  | 123 => ⟨S_, .i32⟩
  | 124 => ⟨S_, .f32⟩
  | 125 => ⟨S64x258x258, .f32⟩
  | 126 => ⟨S_, .i32⟩
  | 127 => ⟨S_, .i32⟩
  | _ => ⟨S64x8x256x256, .f32⟩

abbrev hbmTy0_1 (i : Nat) : BufTy := match i % 128 with
  | 0 => ⟨S_, .i32⟩
  | 1 => ⟨S64x256x256, .f32⟩
  | 2 => ⟨S64x1x256x256, .f32⟩
  | 3 => ⟨S64x256x256, .f32⟩
  | 4 => ⟨S64x256x256, .f32⟩
  | 5 => ⟨S_, .i32⟩
  | 6 => ⟨S_, .f32⟩
  | 7 => ⟨S64x258x258, .f32⟩
  | 8 => ⟨S_, .i32⟩
  | 9 => ⟨S_, .i32⟩
  | 10 => ⟨S_, .i32⟩
  | 11 => ⟨S64x256x256, .f32⟩
  | 12 => ⟨S64x256x256, .f32⟩
  | 13 => ⟨S_, .i32⟩
  | 14 => ⟨S_, .f32⟩
  | 15 => ⟨S64x258x258, .f32⟩
  | 16 => ⟨S_, .i32⟩
  | 17 => ⟨S_, .i32⟩
  | 18 => ⟨S_, .i32⟩
  | 19 => ⟨S64x256x256, .f32⟩
  | 20 => ⟨S64x1x256x256, .f32⟩
  | 21 => ⟨S64x256x256, .f32⟩
  | 22 => ⟨S64x256x256, .f32⟩
  | 23 => ⟨S_, .i32⟩
  | 24 => ⟨S_, .f32⟩
  | 25 => ⟨S64x258x258, .f32⟩
  | 26 => ⟨S_, .i32⟩
  | 27 => ⟨S_, .i32⟩
  | 28 => ⟨S_, .i32⟩
  | 29 => ⟨S64x256x256, .f32⟩
  | 30 => ⟨S64x256x256, .f32⟩
  | 31 => ⟨S_, .i32⟩
  | 32 => ⟨S_, .f32⟩
  | 33 => ⟨S64x258x258, .f32⟩
  | 34 => ⟨S_, .i32⟩
  | 35 => ⟨S_, .i32⟩
  | 36 => ⟨S_, .i32⟩
  | 37 => ⟨S64x256x256, .f32⟩
  | 38 => ⟨S64x1x256x256, .f32⟩
  | 39 => ⟨S64x256x256, .f32⟩
  | 40 => ⟨S64x256x256, .f32⟩
  | 41 => ⟨S_, .i32⟩
  | 42 => ⟨S_, .f32⟩
  | 43 => ⟨S64x258x258, .f32⟩
  | 44 => ⟨S_, .i32⟩
  | 45 => ⟨S_, .i32⟩
  | 46 => ⟨S_, .i32⟩
  | 47 => ⟨S64x256x256, .f32⟩
  | 48 => ⟨S64x256x256, .f32⟩
  | 49 => ⟨S64x1x256x256, .f32⟩
  | _ => ⟨S64x8x256x256, .f32⟩

abbrev hbmTy (i : Nat) : BufTy := match i / 128 with
  | 0 => hbmTy0_0 i
  | 1 => hbmTy0_1 i
  | _ => ⟨S64x8x256x256, .f32⟩

abbrev bufTy : (tb : Table) → Fin (tcTables nBuf tb) → BufTy
  | .hbm, ⟨i, _⟩ => hbmTy i
  | _, _ => ⟨S64x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_c_3 : Ref sig .tc := ⟨.hbm, 25, rfl⟩
abbrev main_c_4 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_call1_v0 : Ref sig .tc := ⟨.hbm, 33, rfl⟩
abbrev main_v20 : Ref sig .tc := ⟨.hbm, 34, rfl⟩
abbrev main_c_7 : Ref sig .tc := ⟨.hbm, 35, rfl⟩
abbrev main_c_8 : Ref sig .tc := ⟨.hbm, 36, rfl⟩
abbrev main_c_9 : Ref sig .tc := ⟨.hbm, 37, rfl⟩
abbrev main_v21 : Ref sig .tc := ⟨.hbm, 38, rfl⟩
abbrev main_v22 : Ref sig .tc := ⟨.hbm, 39, rfl⟩
abbrev main_c_10 : Ref sig .tc := ⟨.hbm, 40, rfl⟩
abbrev main_call2_v0 : Ref sig .tc := ⟨.hbm, 41, rfl⟩
abbrev main_v23 : Ref sig .tc := ⟨.hbm, 42, rfl⟩
abbrev main_c_11 : Ref sig .tc := ⟨.hbm, 43, rfl⟩
abbrev main_c_12 : Ref sig .tc := ⟨.hbm, 44, rfl⟩
abbrev main_c_13 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_14 : Ref sig .tc := ⟨.hbm, 50, rfl⟩
abbrev main_call3_v0 : Ref sig .tc := ⟨.hbm, 51, rfl⟩
abbrev main_v28 : Ref sig .tc := ⟨.hbm, 52, rfl⟩
abbrev main_c_15 : Ref sig .tc := ⟨.hbm, 53, rfl⟩
abbrev main_c_16 : Ref sig .tc := ⟨.hbm, 54, rfl⟩
abbrev main_c_17 : Ref sig .tc := ⟨.hbm, 55, rfl⟩
abbrev main_v29 : Ref sig .tc := ⟨.hbm, 56, rfl⟩
abbrev main_v30 : Ref sig .tc := ⟨.hbm, 57, rfl⟩
abbrev main_c_18 : Ref sig .tc := ⟨.hbm, 58, rfl⟩
abbrev main_call4_v0 : Ref sig .tc := ⟨.hbm, 59, rfl⟩
abbrev main_v31 : Ref sig .tc := ⟨.hbm, 60, rfl⟩
abbrev main_c_19 : Ref sig .tc := ⟨.hbm, 61, rfl⟩
abbrev main_c_20 : Ref sig .tc := ⟨.hbm, 62, rfl⟩
abbrev main_c_21 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_22 : Ref sig .tc := ⟨.hbm, 68, rfl⟩
abbrev main_call5_v0 : Ref sig .tc := ⟨.hbm, 69, rfl⟩
abbrev main_v36 : Ref sig .tc := ⟨.hbm, 70, rfl⟩
abbrev main_c_23 : Ref sig .tc := ⟨.hbm, 71, rfl⟩
abbrev main_c_24 : Ref sig .tc := ⟨.hbm, 72, rfl⟩
abbrev main_c_25 : Ref sig .tc := ⟨.hbm, 73, rfl⟩
abbrev main_v37 : Ref sig .tc := ⟨.hbm, 74, rfl⟩
abbrev main_v38 : Ref sig .tc := ⟨.hbm, 75, rfl⟩
abbrev main_c_26 : Ref sig .tc := ⟨.hbm, 76, rfl⟩
abbrev main_call6_v0 : Ref sig .tc := ⟨.hbm, 77, rfl⟩
abbrev main_v39 : Ref sig .tc := ⟨.hbm, 78, rfl⟩
abbrev main_c_27 : Ref sig .tc := ⟨.hbm, 79, rfl⟩
abbrev main_c_28 : Ref sig .tc := ⟨.hbm, 80, rfl⟩
abbrev main_c_29 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_30 : Ref sig .tc := ⟨.hbm, 86, rfl⟩
abbrev main_call7_v0 : Ref sig .tc := ⟨.hbm, 87, rfl⟩
abbrev main_v44 : Ref sig .tc := ⟨.hbm, 88, rfl⟩
abbrev main_c_31 : Ref sig .tc := ⟨.hbm, 89, rfl⟩
abbrev main_c_32 : Ref sig .tc := ⟨.hbm, 90, rfl⟩
abbrev main_c_33 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c_34 : Ref sig .tc := ⟨.hbm, 97, rfl⟩
abbrev main_call8_v0 : Ref sig .tc := ⟨.hbm, 98, rfl⟩
abbrev main_v50 : Ref sig .tc := ⟨.hbm, 99, rfl⟩
abbrev main_c_35 : Ref sig .tc := ⟨.hbm, 100, rfl⟩
abbrev main_c_36 : Ref sig .tc := ⟨.hbm, 101, rfl⟩
abbrev main_c_37 : Ref sig .tc := ⟨.hbm, 102, rfl⟩
abbrev main_v51 : Ref sig .tc := ⟨.hbm, 103, rfl⟩
abbrev main_v52 : Ref sig .tc := ⟨.hbm, 104, rfl⟩
abbrev main_c_38 : Ref sig .tc := ⟨.hbm, 105, rfl⟩
abbrev main_call9_v0 : Ref sig .tc := ⟨.hbm, 106, rfl⟩
abbrev main_v53 : Ref sig .tc := ⟨.hbm, 107, rfl⟩
abbrev main_c_39 : Ref sig .tc := ⟨.hbm, 108, rfl⟩
abbrev main_c_40 : Ref sig .tc := ⟨.hbm, 109, rfl⟩
abbrev main_c_41 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_c_42 : Ref sig .tc := ⟨.hbm, 115, rfl⟩
abbrev main_call10_v0 : Ref sig .tc := ⟨.hbm, 116, rfl⟩
abbrev main_v58 : Ref sig .tc := ⟨.hbm, 117, rfl⟩
abbrev main_c_43 : Ref sig .tc := ⟨.hbm, 118, rfl⟩
abbrev main_c_44 : Ref sig .tc := ⟨.hbm, 119, rfl⟩
abbrev main_c_45 : Ref sig .tc := ⟨.hbm, 120, rfl⟩
abbrev main_v59 : Ref sig .tc := ⟨.hbm, 121, rfl⟩
abbrev main_v60 : Ref sig .tc := ⟨.hbm, 122, rfl⟩
abbrev main_c_46 : Ref sig .tc := ⟨.hbm, 123, rfl⟩
abbrev main_call11_v0 : Ref sig .tc := ⟨.hbm, 124, rfl⟩
abbrev main_v61 : Ref sig .tc := ⟨.hbm, 125, rfl⟩
abbrev main_c_47 : Ref sig .tc := ⟨.hbm, 126, rfl⟩
abbrev main_c_48 : Ref sig .tc := ⟨.hbm, 127, rfl⟩
abbrev main_c_49 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_c_50 : Ref sig .tc := ⟨.hbm, 133, rfl⟩
abbrev main_call12_v0 : Ref sig .tc := ⟨.hbm, 134, rfl⟩
abbrev main_v66 : Ref sig .tc := ⟨.hbm, 135, rfl⟩
abbrev main_c_51 : Ref sig .tc := ⟨.hbm, 136, rfl⟩
abbrev main_c_52 : Ref sig .tc := ⟨.hbm, 137, rfl⟩
abbrev main_c_53 : Ref sig .tc := ⟨.hbm, 138, rfl⟩
abbrev main_v67 : Ref sig .tc := ⟨.hbm, 139, rfl⟩
abbrev main_v68 : Ref sig .tc := ⟨.hbm, 140, rfl⟩
abbrev main_c_54 : Ref sig .tc := ⟨.hbm, 141, rfl⟩
abbrev main_call13_v0 : Ref sig .tc := ⟨.hbm, 142, rfl⟩
abbrev main_v69 : Ref sig .tc := ⟨.hbm, 143, rfl⟩
abbrev main_c_55 : Ref sig .tc := ⟨.hbm, 144, rfl⟩
abbrev main_c_56 : Ref sig .tc := ⟨.hbm, 145, rfl⟩
abbrev main_c_57 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_c_58 : Ref sig .tc := ⟨.hbm, 151, rfl⟩
abbrev main_call14_v0 : Ref sig .tc := ⟨.hbm, 152, rfl⟩
abbrev main_v74 : Ref sig .tc := ⟨.hbm, 153, rfl⟩
abbrev main_c_59 : Ref sig .tc := ⟨.hbm, 154, rfl⟩
abbrev main_c_60 : Ref sig .tc := ⟨.hbm, 155, rfl⟩
abbrev main_c_61 : Ref sig .tc := ⟨.hbm, 156, rfl⟩
abbrev main_v75 : Ref sig .tc := ⟨.hbm, 157, rfl⟩
abbrev main_v76 : Ref sig .tc := ⟨.hbm, 158, rfl⟩
abbrev main_c_62 : Ref sig .tc := ⟨.hbm, 159, rfl⟩
abbrev main_call15_v0 : Ref sig .tc := ⟨.hbm, 160, rfl⟩
abbrev main_v77 : Ref sig .tc := ⟨.hbm, 161, rfl⟩
abbrev main_c_63 : Ref sig .tc := ⟨.hbm, 162, rfl⟩
abbrev main_c_64 : Ref sig .tc := ⟨.hbm, 163, rfl⟩
abbrev main_c_65 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_c_66 : Ref sig .tc := ⟨.hbm, 169, rfl⟩
abbrev main_call16_v0 : Ref sig .tc := ⟨.hbm, 170, rfl⟩
abbrev main_v82 : Ref sig .tc := ⟨.hbm, 171, rfl⟩
abbrev main_c_67 : Ref sig .tc := ⟨.hbm, 172, rfl⟩
abbrev main_c_68 : Ref sig .tc := ⟨.hbm, 173, rfl⟩
abbrev main_c_69 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩

abbrev nD : Nat := 1
abbrev τ : Topo := Topo.v7x

variable {F : FTy → Type} [FloatOps F]

class Facts₀ : Prop where
  reducesTo_S64x8x256x256_S64x256x256_d1 : S64x8x256x256.ReducesTo [1] S64x256x256
  h_S_ : 0 < S_.numel
  bcast_S64x256x256_S64x1x256x256_0_2_3 : S64x256x256.BroadcastsInDim S64x1x256x256 (![0, 2, 3] : Fin 3 → Fin S64x1x256x256.rank)
  bcast_S64x1x256x256_S64x8x256x256_0_1_2_3 : S64x1x256x256.BroadcastsInDim S64x8x256x256 (![0, 1, 2, 3] : Fin 4 → Fin S64x8x256x256.rank)
  slices_S64x8x256x256_S64x4x256x256_0_0_0_0 : S64x8x256x256.Slices ![0, 0, 0, 0] S64x4x256x256
  bcast_S_S64x1x256x256 : S_.BroadcastsInDim S64x1x256x256 (![] : Fin 0 → Fin S64x1x256x256.rank)
  slices_S64x8x256x256_S64x4x256x256_0_4_0_0 : S64x8x256x256.Slices ![0, 4, 0, 0] S64x4x256x256
  concatenates_S64x4x256x256_S64x1x256x256_S64x4x256x256_S64x9x256x256_d1 : Shape.Concatenates [S64x4x256x256, S64x1x256x256, S64x4x256x256] S64x9x256x256 1
  shapeCasts_S64x1x256x256_S64x256x256 : S64x1x256x256.ShapeCasts S64x256x256
  bcast_S_S64x256x256 : S_.BroadcastsInDim S64x256x256 (![] : Fin 0 → Fin S64x256x256.rank)
  pads_S64x256x256_S64x258x258_000_110_110 : S64x256x256.Pads (![0, 1, 1] : Fin 3 → Nat) ![0, 1, 1] ![0, 0, 0] S64x258x258
  sliceFits_S64x258x258_S64x256x256 : S64x258x258.Slices (fun _ => 0) S64x256x256
  slices_S64x9x256x256_S64x1x256x256_0_0_0_0 : S64x9x256x256.Slices ![0, 0, 0, 0] S64x1x256x256
  slices_S64x9x256x256_S64x1x256x256_0_1_0_0 : S64x9x256x256.Slices ![0, 1, 0, 0] S64x1x256x256
  slices_S64x9x256x256_S64x1x256x256_0_2_0_0 : S64x9x256x256.Slices ![0, 2, 0, 0] S64x1x256x256
  slices_S64x9x256x256_S64x1x256x256_0_3_0_0 : S64x9x256x256.Slices ![0, 3, 0, 0] S64x1x256x256
  slices_S64x9x256x256_S64x1x256x256_0_4_0_0 : S64x9x256x256.Slices ![0, 4, 0, 0] S64x1x256x256
  slices_S64x9x256x256_S64x1x256x256_0_5_0_0 : S64x9x256x256.Slices ![0, 5, 0, 0] S64x1x256x256
  slices_S64x9x256x256_S64x1x256x256_0_6_0_0 : S64x9x256x256.Slices ![0, 6, 0, 0] S64x1x256x256
  slices_S64x9x256x256_S64x1x256x256_0_7_0_0 : S64x9x256x256.Slices ![0, 7, 0, 0] S64x1x256x256
  slices_S64x9x256x256_S64x1x256x256_0_8_0_0 : S64x9x256x256.Slices ![0, 8, 0, 0] S64x1x256x256

variable [Facts₀]

class Facts : Prop extends Facts₀ where

variable [Facts]
-- ==== Proof.PixelLaw.lean ====
/-
  One image of the propagation step, as mathematics on the extended reals.

  An image is a function of a row y and a column x, both below 256. For eight neighbour weights A k, a current
  image cu and a coarse image co:
    * s = Σ_k |A k| and raw = Σ_k A k, pixel by pixel;
    * the weight of neighbour k is A k / s (the reference) or A k · (1 / s) (the kernel);
    * a shift by one pixel reads the neighbouring pixel, and 0 outside the image.
  The reference multiplies each weight by the current image shifted one way and shifts the product back the other
  way; the two shifts cancel, so its term for neighbour k is (the weight shifted) · cu, pixel by pixel. The kernel
  shifts the weights only, adds them up and multiplies the total by cu. Where every entry is a real number and every
  s is positive the two agree: a / s = a · (1 / s), and cu distributes over the sum of the shifted weights.
-/
import Mathlib
import Idealize.ShloMosaic.PureOps.Ideal

noncomputable section

namespace Cert.Cspn

open Idealize.ShloMosaic

/-- One image: rows and columns below 256. -/
abbrev Img := Fin 256 → Fin 256 → EReal

/-- The image read at row y + o − 1, and 0 where that row is outside: o = 1 is the image itself, o = 2 reads the
    row below, o = 0 the row above. -/
def shY (o : Nat) (g : Img) : Img := fun y x =>
  if h : 1 ≤ y.val + o ∧ y.val + o ≤ 256 then g ⟨y.val + o - 1, by omega⟩ x else 0

/-- The image read at column x + o − 1, and 0 where that column is outside. -/
def shX (o : Nat) (g : Img) : Img := fun y x =>
  if h : 1 ≤ x.val + o ∧ x.val + o ≤ 256 then g y ⟨x.val + o - 1, by omega⟩ else 0

theorem shY_one (g : Img) : shY 1 g = g := by
  funext y x
  have := y.isLt
  unfold shY
  rw [dif_pos ⟨by omega, by omega⟩]
  exact congrArg (fun z => g z x) (Fin.ext (by show y.val + 1 - 1 = y.val; omega))

theorem shX_one (g : Img) : shX 1 g = g := by
  funext y x
  have := x.isLt
  unfold shX
  rw [dif_pos ⟨by omega, by omega⟩]
  exact congrArg (fun z => g y z) (Fin.ext (by show x.val + 1 - 1 = x.val; omega))

/-- A row shift of a sum of three images started from 0 is the sum of the shifted images started from 0. -/
theorem shY_sum3 (o : Nat) (f g h : Img) (y x : Fin 256) :
    shY o (fun y x => 0 + f y x + g y x + h y x) y x = 0 + shY o f y x + shY o g y x + shY o h y x := by
  unfold shY
  split
  · rfl
  · simp

/-- The reference's term for one neighbour: the weight times the current image shifted by (iy, ix), the product
    shifted by (oy, ox). When the two shifts are opposite (iy + oy = 2 and ix + ox = 2) the current image is read
    where the result is written: the term is the shifted weight times the current image. -/
theorem shift_mul_shift (w cu : Img) (iy ix oy ox : Nat) (hy : iy + oy = 2) (hx : ix + ox = 2) (y x : Fin 256) :
    shY oy (shX ox (fun y x => w y x * shY iy (shX ix cu) y x)) y x = shY oy (shX ox w) y x * cu y x := by
  have hyl := y.isLt
  have hxl := x.isLt
  unfold shY
  by_cases h1 : 1 ≤ y.val + oy ∧ y.val + oy ≤ 256
  · rw [dif_pos h1, dif_pos h1]
    unfold shX
    by_cases h2 : 1 ≤ x.val + ox ∧ x.val + ox ≤ 256
    · rw [dif_pos h2, dif_pos h2]
      have h3 : 1 ≤ (y.val + oy - 1) + iy ∧ (y.val + oy - 1) + iy ≤ 256 := by omega
      have h4 : 1 ≤ (x.val + ox - 1) + ix ∧ (x.val + ox - 1) + ix ≤ 256 := by omega
      dsimp only
      rw [dif_pos h3, dif_pos h4]
      congr 2 <;> exact Fin.ext (by show _ - 1 + _ - 1 = _; omega)
    · rw [dif_neg h2, dif_neg h2, zero_mul]
  · rw [dif_neg h1, dif_neg h1, zero_mul]

/-- A shift of an image of real numbers is an image of real numbers. -/
theorem shY_real (o : Nat) (g : Img) (hg : ∀ y x, ∃ r : ℝ, g y x = r) (y x : Fin 256) : ∃ r : ℝ, shY o g y x = r := by
  unfold shY
  split
  · exact hg _ _
  · exact ⟨0, rfl⟩

theorem shX_real (o : Nat) (g : Img) (hg : ∀ y x, ∃ r : ℝ, g y x = r) (y x : Fin 256) : ∃ r : ℝ, shX o g y x = r := by
  unfold shX
  split
  · exact hg _ _
  · exact ⟨0, rfl⟩

/-! ## The two arrangements -/

/-- Σ_k |A k| as the reference takes it: from 0, a sum over the eight neighbours. -/
def sumAbs (A : Fin 8 → Img) : Img := fun y x => 0 + ∑ k : Fin 8, max (A k y x) (-(A k y x))

/-- Σ_k |A k| as the kernel takes it: from 0, one neighbour after the other. -/
def sumAbsK (A : Fin 8 → Img) : Img := fun y x =>
  0 + max (A 0 y x) (-(A 0 y x)) + max (A 1 y x) (-(A 1 y x)) + max (A 2 y x) (-(A 2 y x)) + max (A 3 y x) (-(A 3 y x))
    + max (A 4 y x) (-(A 4 y x)) + max (A 5 y x) (-(A 5 y x)) + max (A 6 y x) (-(A 6 y x)) + max (A 7 y x) (-(A 7 y x))

/-- Σ_k A k as the reference takes it. -/
def rawR (A : Fin 8 → Img) : Img := fun y x => 0 + ∑ k : Fin 8, A k y x

/-- Σ_k A k as the kernel takes it. -/
def rawK (A : Fin 8 → Img) : Img := fun y x =>
  0 + A 0 y x + A 1 y x + A 2 y x + A 3 y x + A 4 y x + A 5 y x + A 6 y x + A 7 y x

theorem sumAbsK_eq (A : Fin 8 → Img) : sumAbsK A = sumAbs A := by
  funext y x
  simp only [sumAbsK, sumAbs, Fin.sum_univ_eight, zero_add]

theorem rawK_eq (A : Fin 8 → Img) : rawK A = rawR A := by
  funext y x
  simp only [rawK, rawR, Fin.sum_univ_eight, zero_add]

/-- The reference's weight of neighbour k: A k / s. -/
def wR (A : Fin 8 → Img) (k : Fin 8) : Img := fun y x => Ideal.div (A k y x) (sumAbs A y x)

/-- The kernel's weight of neighbour k: A k · (1 / s). -/
def wK (A : Fin 8 → Img) (k : Fin 8) : Img := fun y x => A k y x * Ideal.div 1 (sumAbsK A y x)

/-- The kernel's image: the coarse image times 1 − raw, plus the current image times the eight shifted weights, which
    it adds up row group by row group — the columns shifted inside a group, the group's rows shifted once. -/
def Kpix (A : Fin 8 → Img) (cu co : Img) : Img := fun y x =>
  co y x * (1 - rawK A y x) + cu y x *
    ((0 + shY 2 (fun y x => 0 + shX 2 (wK A 0) y x + wK A 1 y x + shX 0 (wK A 2) y x) y x)
      + (0 + shX 2 (wK A 3) y x + shX 0 (wK A 4) y x)
      + shY 0 (fun y x => 0 + shX 2 (wK A 5) y x + wK A 6 y x + shX 0 (wK A 7) y x) y x)

/-- The reference's term for a neighbour. -/
def tapR (w cu : Img) (iy ix oy ox : Nat) : Img := shY oy (shX ox (fun y x => w y x * shY iy (shX ix cu) y x))

/-- The reference's image: from 0, the nine terms in the order of the 3 × 3 window, the centre's term the coarse image
    times 1 − raw. -/
def Rpix (A : Fin 8 → Img) (cu co : Img) : Img := fun y x =>
  0 + tapR (wR A 0) cu 0 0 2 2 y x + tapR (wR A 1) cu 0 1 2 1 y x + tapR (wR A 2) cu 0 2 2 0 y x
    + tapR (wR A 3) cu 1 0 1 2 y x + shY 1 (shX 1 (fun y x => (1 - rawR A y x) * co y x)) y x
    + tapR (wR A 4) cu 1 2 1 0 y x + tapR (wR A 5) cu 2 0 0 2 y x + tapR (wR A 6) cu 2 1 0 1 y x
    + tapR (wR A 7) cu 2 2 0 0 y x

/-! ## Where the entries are real and the sums of absolute values positive -/

theorem coe_max' (a b : ℝ) : ((max a b : ℝ) : EReal) = max (a : EReal) (b : EReal) :=
  EReal.coe_strictMono.monotone.map_max

/-- The sum of the absolute values of eight reals, on the extended reals, is a real. -/
theorem sumAbs_real (A : Fin 8 → Img) (hA : ∀ k y x, ∃ r : ℝ, A k y x = r) (y x : Fin 256) : ∃ r : ℝ, sumAbs A y x = r := by
  choose a ha using hA
  refine ⟨max (a 0 y x) (-(a 0 y x)) + max (a 1 y x) (-(a 1 y x)) + max (a 2 y x) (-(a 2 y x)) + max (a 3 y x) (-(a 3 y x))
    + max (a 4 y x) (-(a 4 y x)) + max (a 5 y x) (-(a 5 y x)) + max (a 6 y x) (-(a 6 y x)) + max (a 7 y x) (-(a 7 y x)), ?_⟩
  simp only [sumAbs, Fin.sum_univ_eight, zero_add, ha, EReal.coe_add, coe_max', EReal.coe_neg]

theorem rawR_real (A : Fin 8 → Img) (hA : ∀ k y x, ∃ r : ℝ, A k y x = r) (y x : Fin 256) : ∃ r : ℝ, rawR A y x = r := by
  choose a ha using hA
  refine ⟨a 0 y x + a 1 y x + a 2 y x + a 3 y x + a 4 y x + a 5 y x + a 6 y x + a 7 y x, ?_⟩
  simp only [rawR, Fin.sum_univ_eight, zero_add, ha, EReal.coe_add]

/-- Where s is a positive real and A k a real, the kernel's weight is the reference's, and it is a real. -/
theorem wK_eq_wR (A : Fin 8 → Img) (hA : ∀ k y x, ∃ r : ℝ, A k y x = r) (hpos : ∀ y x, 0 < sumAbs A y x) (k : Fin 8) :
    wK A k = wR A k ∧ ∀ y x, ∃ r : ℝ, wR A k y x = r := by
  have key : ∀ y x, wK A k y x = wR A k y x ∧ ∃ r : ℝ, wR A k y x = r := by
    intro y x
    obtain ⟨a, ha⟩ := hA k y x
    obtain ⟨s, hs⟩ := sumAbs_real A hA y x
    have hs0 : s ≠ 0 := by
      have := hpos y x
      rw [hs] at this
      exact ne_of_gt (EReal.coe_pos.1 this)
    unfold wK wR
    rw [sumAbsK_eq, hs, ha, Ideal.div_coe hs0, Ideal.div_coe hs0, one_mul]
    exact ⟨rfl, ⟨a * (1 / s), by rw [EReal.coe_mul]⟩⟩
  exact ⟨funext fun y => funext fun x => (key y x).1, fun y x => (key y x).2⟩

/-- The two arrangements agree where every entry is a real and every sum of absolute values is positive. -/
theorem Kpix_eq_Rpix (A : Fin 8 → Img) (cu co : Img) (hA : ∀ k y x, ∃ r : ℝ, A k y x = r)
    (hpos : ∀ y x, 0 < sumAbs A y x) (hcu : ∀ y x, ∃ r : ℝ, cu y x = r) (hco : ∀ y x, ∃ r : ℝ, co y x = r) :
    Kpix A cu co = Rpix A cu co := by
  funext y x
  have hw := fun k => wK_eq_wR A hA hpos k
  unfold Kpix Rpix tapR
  simp only [(hw _).1, rawK_eq]
  rw [shY_sum3, shY_sum3]
  rw [shift_mul_shift _ _ 0 0 2 2 rfl rfl, shift_mul_shift _ _ 0 1 2 1 rfl rfl, shift_mul_shift _ _ 0 2 2 0 rfl rfl,
    shift_mul_shift _ _ 1 0 1 2 rfl rfl, shift_mul_shift _ _ 1 2 1 0 rfl rfl, shift_mul_shift _ _ 2 0 0 2 rfl rfl,
    shift_mul_shift _ _ 2 1 0 1 rfl rfl, shift_mul_shift _ _ 2 2 0 0 rfl rfl]
  simp only [shY_one, shX_one]
  obtain ⟨c, hc⟩ := hcu y x
  obtain ⟨d, hd⟩ := hco y x
  obtain ⟨R, hR⟩ := rawR_real A hA y x
  obtain ⟨r0, h0⟩ := shY_real 2 _ (shX_real 2 _ (hw 0).2) y x
  obtain ⟨r1, h1⟩ := shY_real 2 _ (hw 1).2 y x
  obtain ⟨r2, h2⟩ := shY_real 2 _ (shX_real 0 _ (hw 2).2) y x
  obtain ⟨r3, h3⟩ := shX_real 2 _ (hw 3).2 y x
  obtain ⟨r4, h4⟩ := shX_real 0 _ (hw 4).2 y x
  obtain ⟨r5, h5⟩ := shY_real 0 _ (shX_real 2 _ (hw 5).2) y x
  obtain ⟨r6, h6⟩ := shY_real 0 _ (hw 6).2 y x
  obtain ⟨r7, h7⟩ := shY_real 0 _ (shX_real 0 _ (hw 7).2) y x
  rw [hc, hd, hR, h0, h1, h2, h3, h4, h5, h6, h7]
  norm_cast
  ring

end Cert.Cspn

end
-- ==== Proof.ShiftBlock.lean ====
/-
  A block of four images moved by one pixel, as a kernel forms it: the block is cut by one column (or one row) at
  one end and a column (or row) of a fill value is joined at the other end. Read at the pixel (b, y, x) the result is
  the block at the neighbouring pixel when that neighbour is inside the image, and the fill otherwise.
-/
import Idealize.ShloMosaic.Lib.ValueIdx
import Idealize.ShloMosaic.Lib.Pipeline.Value

noncomputable section

namespace Cert.Cspn

open Idealize.ShloMosaic Idealize.ShloMosaic.ValueIdx

variable {α : Type}

/-- Four images of 256 by 256 pixels. -/
abbrev B3 : Shape := ⟨3, ![4, 256, 256]⟩
/-- The same less one column. -/
abbrev BW : Shape := ⟨3, ![4, 256, 255]⟩
/-- One column. -/
abbrev BW1 : Shape := ⟨3, ![4, 256, 1]⟩
/-- The same less one row. -/
abbrev BH : Shape := ⟨3, ![4, 255, 256]⟩
/-- One row. -/
abbrev BH1 : Shape := ⟨3, ![4, 1, 256]⟩

/-- Columns 1 … 255 followed by a fill column: pixel (b, y, x) holds the block at (b, y, x + 1), the fill in the
    last column. -/
theorem colsFromRight (f : B3.Idx → α) (g : BW1.Idx → α) (hs : B3.Slices ![0, 0, 1] BW)
    (hc : Shape.Concatenates [BW, BW1] B3 2) (b : Fin 4) (y x : Fin 256) :
    concatenate B3 2 [⟨BW, extractStridedSlice BW ![0, 0, 1] f hs⟩, ⟨BW1, g⟩] hc (ix3 b y x)
      = if h : x.val + 1 < 256 then f (ix3 b y ⟨x.val + 1, h⟩) else g (ix3 b y 0) := by
  split
  · next h =>
    rw [concatenate_pair_apply_left (t := B3) (s₁ := BW) (s₂ := BW1) (2 : Fin 3) _ g hc (ix3 b y x) rfl (ix3 b y ⟨x.val, by omega⟩)
      (fun a => match a with | ⟨0, _⟩ => rfl | ⟨1, _⟩ => rfl | ⟨2, _⟩ => rfl)]
    exact extractStridedSlice_apply _ f hs _ _ (fun a => match a with
      | ⟨0, _⟩ => by show b.val = 0 + b.val; omega
      | ⟨1, _⟩ => by show y.val = 0 + y.val; omega
      | ⟨2, _⟩ => by show x.val + 1 = 1 + x.val; omega)
  · next h =>
    exact concatenate_pair_apply_right (t := B3) (s₁ := BW) (s₂ := BW1) (2 : Fin 3) _ g hc (ix3 b y x) rfl rfl (ix3 b y 0)
      (fun a ha => match a with | ⟨0, _⟩ => rfl | ⟨1, _⟩ => rfl | ⟨2, _⟩ => absurd rfl ha)
      (by show 0 + 255 = x.val; omega)

/-- A fill column followed by columns 0 … 254: pixel (b, y, x) holds the block at (b, y, x − 1), the fill in the
    first column. -/
theorem colsFromLeft (f : B3.Idx → α) (g : BW1.Idx → α) (hs : B3.Slices ![0, 0, 0] BW)
    (hc : Shape.Concatenates [BW1, BW] B3 2) (b : Fin 4) (y x : Fin 256) :
    concatenate B3 2 [⟨BW1, g⟩, ⟨BW, extractStridedSlice BW ![0, 0, 0] f hs⟩] hc (ix3 b y x)
      = if h : 1 ≤ x.val then f (ix3 b y ⟨x.val - 1, by omega⟩) else g (ix3 b y 0) := by
  split
  · next h =>
    rw [concatenate_pair_apply_right (t := B3) (s₁ := BW1) (s₂ := BW) (2 : Fin 3) g _ hc (ix3 b y x) rfl rfl (ix3 b y ⟨x.val - 1, by omega⟩)
      (fun a ha => match a with | ⟨0, _⟩ => rfl | ⟨1, _⟩ => rfl | ⟨2, _⟩ => absurd rfl ha)
      (by show x.val - 1 + 1 = x.val; omega)]
    exact extractStridedSlice_apply _ f hs _ _ (fun a => match a with
      | ⟨0, _⟩ => by show b.val = 0 + b.val; omega
      | ⟨1, _⟩ => by show y.val = 0 + y.val; omega
      | ⟨2, _⟩ => by show x.val - 1 = 0 + (x.val - 1); omega)
  · next h =>
    exact concatenate_pair_apply_left (t := B3) (s₁ := BW1) (s₂ := BW) (2 : Fin 3) g _ hc (ix3 b y x) rfl (ix3 b y 0)
      (fun a => match a with | ⟨0, _⟩ => rfl | ⟨1, _⟩ => rfl | ⟨2, _⟩ => by show 0 = x.val; omega)

/-- Rows 1 … 255 followed by a fill row: pixel (b, y, x) holds the block at (b, y + 1, x), the fill in the last
    row. -/
theorem rowsFromBelow (f : B3.Idx → α) (g : BH1.Idx → α) (hs : B3.Slices ![0, 1, 0] BH)
    (hc : Shape.Concatenates [BH, BH1] B3 1) (b : Fin 4) (y x : Fin 256) :
    concatenate B3 1 [⟨BH, extractStridedSlice BH ![0, 1, 0] f hs⟩, ⟨BH1, g⟩] hc (ix3 b y x)
      = if h : y.val + 1 < 256 then f (ix3 b ⟨y.val + 1, h⟩ x) else g (ix3 b 0 x) := by
  split
  · next h =>
    rw [concatenate_pair_apply_left (t := B3) (s₁ := BH) (s₂ := BH1) (1 : Fin 3) _ g hc (ix3 b y x) rfl (ix3 b ⟨y.val, by omega⟩ x)
      (fun a => match a with | ⟨0, _⟩ => rfl | ⟨1, _⟩ => rfl | ⟨2, _⟩ => rfl)]
    exact extractStridedSlice_apply _ f hs _ _ (fun a => match a with
      | ⟨0, _⟩ => by show b.val = 0 + b.val; omega
      | ⟨1, _⟩ => by show y.val + 1 = 1 + y.val; omega
      | ⟨2, _⟩ => by show x.val = 0 + x.val; omega)
  · next h =>
    exact concatenate_pair_apply_right (t := B3) (s₁ := BH) (s₂ := BH1) (1 : Fin 3) _ g hc (ix3 b y x) rfl rfl (ix3 b 0 x)
      (fun a ha => match a with | ⟨0, _⟩ => rfl | ⟨1, _⟩ => absurd rfl ha | ⟨2, _⟩ => rfl)
      (by show 0 + 255 = y.val; omega)

/-- A fill row followed by rows 0 … 254: pixel (b, y, x) holds the block at (b, y − 1, x), the fill in the first
    row. -/
theorem rowsFromAbove (f : B3.Idx → α) (g : BH1.Idx → α) (hs : B3.Slices ![0, 0, 0] BH)
    (hc : Shape.Concatenates [BH1, BH] B3 1) (b : Fin 4) (y x : Fin 256) :
    concatenate B3 1 [⟨BH1, g⟩, ⟨BH, extractStridedSlice BH ![0, 0, 0] f hs⟩] hc (ix3 b y x)
      = if h : 1 ≤ y.val then f (ix3 b ⟨y.val - 1, by omega⟩ x) else g (ix3 b 0 x) := by
  split
  · next h =>
    rw [concatenate_pair_apply_right (t := B3) (s₁ := BH1) (s₂ := BH) (1 : Fin 3) g _ hc (ix3 b y x) rfl rfl (ix3 b ⟨y.val - 1, by omega⟩ x)
      (fun a ha => match a with | ⟨0, _⟩ => rfl | ⟨1, _⟩ => absurd rfl ha | ⟨2, _⟩ => rfl)
      (by show y.val - 1 + 1 = y.val; omega)]
    exact extractStridedSlice_apply _ f hs _ _ (fun a => match a with
      | ⟨0, _⟩ => by show b.val = 0 + b.val; omega
      | ⟨1, _⟩ => by show y.val - 1 = 0 + (y.val - 1); omega
      | ⟨2, _⟩ => by show x.val = 0 + x.val; omega)
  · next h =>
    exact concatenate_pair_apply_left (t := B3) (s₁ := BH1) (s₂ := BH) (1 : Fin 3) g _ hc (ix3 b y x) rfl (ix3 b 0 x)
      (fun a => match a with | ⟨0, _⟩ => rfl | ⟨1, _⟩ => by show 0 = y.val; omega | ⟨2, _⟩ => rfl)

end Cert.Cspn

end
-- ==== Proof.KernelBlock.lean ====
/-
  One block of the kernel: what the body leaves in its output block, read pixel by pixel.

  The body loads the eight neighbour channels of a block of four affinity images one at a time, the current and the
  coarse block, and stores one block. Seen image by image, every operation of the body is either pointwise or one of
  four moves by one pixel (a slice joined to a row or column of zeros), so the stored block at pixel (y, x) of image b is
  the kernel's arrangement of the propagation step (PixelLaw) on image b of the three input blocks.
-/
import proofs.«129089_j25074019074065_2_alg».proof.Proof.Gen.KernelIdeal.Frame
import proofs.«129089_j25074019074065_2_alg».proof.Proof.ShiftBlock
import proofs.«129089_j25074019074065_2_alg».proof.Proof.PixelLaw
import Idealize.ShloMosaic.PureOps.Ideal.Laws
import Idealize.ShloMosaic.Lib.IdealHost
import Idealize.ShloMosaic.Lib.ValueIdx
import Idealize.ShloMosaic.Lib.Pipeline.Value

noncomputable section

namespace Cert.KernelIdeal.Block

open Cert.KernelIdeal Cert.KernelIdeal.Gen Cert.Cspn Idealize.ShloMosaic Idealize.ShloMosaic.ValueIdx

/-- Image b of a block of four images. -/
def imgOf (f : FVec Ideal S4x256x256 .f32) (b : Fin 4) : Img := fun y x => f (ix3 b y x)

theorem imgOf_addf (f g : FVec Ideal S4x256x256 .f32) (b : Fin 4) :
    imgOf (addf f g) b = fun y x => imgOf f b y x + imgOf g b y x := rfl
theorem imgOf_mulf (f g : FVec Ideal S4x256x256 .f32) (b : Fin 4) :
    imgOf (mulf f g) b = fun y x => imgOf f b y x * imgOf g b y x := rfl
theorem imgOf_subf (f g : FVec Ideal S4x256x256 .f32) (b : Fin 4) :
    imgOf (subf f g) b = fun y x => imgOf f b y x - imgOf g b y x := rfl
theorem imgOf_divf (f g : FVec Ideal S4x256x256 .f32) (b : Fin 4) :
    imgOf (divf f g) b = fun y x => Ideal.div (imgOf f b y x) (imgOf g b y x) := rfl
theorem imgOf_absf (f : FVec Ideal S4x256x256 .f32) (b : Fin 4) :
    imgOf (absf f) b = fun y x => max (imgOf f b y x) (-(imgOf f b y x)) := rfl
theorem imgOf_broadcast (c : Ideal .f32) (b : Fin 4) : imgOf (broadcast S4x256x256 c) b = fun _ _ => c := rfl

theorem scalar_zero : (Scalar.ofBits .f32 0x00000000#32 : Ideal .f32) = 0 := Ideal.ofBits_zero_f32
theorem scalar_one : (Scalar.ofBits .f32 0x3F800000#32 : Ideal .f32) = 1 := Ideal.ofBits_one_f32

/-- Columns 1 … 255 and a column of zeros: every image's columns read one to the right. -/
theorem imgOf_colsR (f : FVec Ideal S4x256x256 .f32) (hs : S4x256x256.Slices ![0, 0, 1] S4x256x255) (hc : Shape.Concatenates [S4x256x255, S4x256x1] S4x256x256 2) (b : Fin 4) :
    imgOf (concatenate S4x256x256 2 [⟨S4x256x255, extractStridedSlice S4x256x255 ![0, 0, 1] f hs⟩, ⟨S4x256x1, broadcast S4x256x1 (Ideal.ofBits .f32 0x00000000#32)⟩] hc) b = shX 2 (imgOf f b) := by
  funext y x
  refine (colsFromRight (α := EReal) f (broadcast S4x256x1 (Ideal.ofBits .f32 0x00000000#32)) hs hc b y x).trans ?_
  show _ = (if h : 1 ≤ x.val + 2 ∧ x.val + 2 ≤ 256 then f (ix3 b y ⟨x.val + 2 - 1, by omega⟩) else 0)
  by_cases h : x.val + 1 < 256
  · rw [dif_pos h, dif_pos ⟨by omega, by omega⟩]
    exact congrArg (fun z => f (ix3 b y z)) (Fin.ext (by show x.val + 1 = x.val + 2 - 1; omega))
  · rw [dif_neg h, dif_neg (by omega)]
    exact Ideal.ofBits_zero_f32

/-- A column of zeros and columns 0 … 254: every image's columns read one to the left. -/
theorem imgOf_colsL (f : FVec Ideal S4x256x256 .f32) (hs : S4x256x256.Slices ![0, 0, 0] S4x256x255) (hc : Shape.Concatenates [S4x256x1, S4x256x255] S4x256x256 2) (b : Fin 4) :
    imgOf (concatenate S4x256x256 2 [⟨S4x256x1, broadcast S4x256x1 (Ideal.ofBits .f32 0x00000000#32)⟩, ⟨S4x256x255, extractStridedSlice S4x256x255 ![0, 0, 0] f hs⟩] hc) b = shX 0 (imgOf f b) := by
  funext y x
  refine (colsFromLeft (α := EReal) f (broadcast S4x256x1 (Ideal.ofBits .f32 0x00000000#32)) hs hc b y x).trans ?_
  show _ = (if h : 1 ≤ x.val + 0 ∧ x.val + 0 ≤ 256 then f (ix3 b y ⟨x.val + 0 - 1, by omega⟩) else 0)
  by_cases h : 1 ≤ x.val
  · rw [dif_pos h, dif_pos ⟨by omega, by have := x.isLt; omega⟩]
    exact congrArg (fun z => f (ix3 b y z)) (Fin.ext (by show x.val - 1 = x.val + 0 - 1; omega))
  · rw [dif_neg h, dif_neg (by omega)]
    exact Ideal.ofBits_zero_f32

/-- Rows 1 … 255 and a row of zeros: every image's rows read one below. -/
theorem imgOf_rowsD (f : FVec Ideal S4x256x256 .f32) (hs : S4x256x256.Slices ![0, 1, 0] S4x255x256) (hc : Shape.Concatenates [S4x255x256, S4x1x256] S4x256x256 1) (b : Fin 4) :
    imgOf (concatenate S4x256x256 1 [⟨S4x255x256, extractStridedSlice S4x255x256 ![0, 1, 0] f hs⟩, ⟨S4x1x256, broadcast S4x1x256 (Ideal.ofBits .f32 0x00000000#32)⟩] hc) b = shY 2 (imgOf f b) := by
  funext y x
  refine (rowsFromBelow (α := EReal) f (broadcast S4x1x256 (Ideal.ofBits .f32 0x00000000#32)) hs hc b y x).trans ?_
  show _ = (if h : 1 ≤ y.val + 2 ∧ y.val + 2 ≤ 256 then f (ix3 b ⟨y.val + 2 - 1, by omega⟩ x) else 0)
  by_cases h : y.val + 1 < 256
  · rw [dif_pos h, dif_pos ⟨by omega, by omega⟩]
    exact congrArg (fun z => f (ix3 b z x)) (Fin.ext (by show y.val + 1 = y.val + 2 - 1; omega))
  · rw [dif_neg h, dif_neg (by omega)]
    exact Ideal.ofBits_zero_f32

/-- A row of zeros and rows 0 … 254: every image's rows read one above. -/
theorem imgOf_rowsU (f : FVec Ideal S4x256x256 .f32) (hs : S4x256x256.Slices ![0, 0, 0] S4x255x256) (hc : Shape.Concatenates [S4x1x256, S4x255x256] S4x256x256 1) (b : Fin 4) :
    imgOf (concatenate S4x256x256 1 [⟨S4x1x256, broadcast S4x1x256 (Ideal.ofBits .f32 0x00000000#32)⟩, ⟨S4x255x256, extractStridedSlice S4x255x256 ![0, 0, 0] f hs⟩] hc) b = shY 0 (imgOf f b) := by
  funext y x
  refine (rowsFromAbove (α := EReal) f (broadcast S4x1x256 (Ideal.ofBits .f32 0x00000000#32)) hs hc b y x).trans ?_
  show _ = (if h : 1 ≤ y.val + 0 ∧ y.val + 0 ≤ 256 then f (ix3 b ⟨y.val + 0 - 1, by omega⟩ x) else 0)
  by_cases h : 1 ≤ y.val
  · rw [dif_pos h, dif_pos ⟨by omega, by have := y.isLt; omega⟩]
    exact congrArg (fun z => f (ix3 b z x)) (Fin.ext (by show y.val - 1 = y.val + 0 - 1; omega))
  · rw [dif_neg h, dif_neg (by omega)]
    exact Ideal.ofBits_zero_f32

/-- The pixel (b, y, x) of four images and the pixel (b, 0, y, x) of the same block with its unit axis sit at one
    place in row-major order. -/
theorem rm_eq (b : Fin 4) (y x : Fin 256) :
    (S4x1x256x256.rowMajor (ix4 b 0 y x)).val = (S4x256x256.rowMajor (ix3 b y x)).val := by
  rw [Shape.rowMajor_val_four, Shape.rowMajor_val_three]
  show ((b.val * 1 + 0) * 256 + y.val) * 256 + x.val = (b.val * 256 + y.val) * 256 + x.val
  omega

/-- The block written back, read at (b, 0, y, x), is the computed block of images at (b, y, x). -/
theorem cast_back (w : FVec Ideal S4x256x256 .f32) (h : S4x256x256.ShapeCasts S4x1x256x256) (b : Fin 4) (y x : Fin 256) :
    shapeCast S4x1x256x256 w h (ix4 b 0 y x) = imgOf w b y x :=
  shapeCast_apply w h (ix4 b 0 y x) (ix3 b y x) (rm_eq b y x).symm

/-- A whole segmentation block as four images. -/
theorem leaf0 (v : Vec Ideal S4x1x256x256 .f32) (h : S4x1x256x256.ShapeCasts S4x256x256) (b : Fin 4) :
    imgOf (shapeCast S4x256x256 (View.ld v r0_0) h) b = fun y x => v (ix4 b 0 y x) := by
  funext y x
  show shapeCast S4x256x256 (View.ld v r0_0) h (ix3 b y x) = _
  rw [shapeCast_apply _ h (ix3 b y x) (ix4 b 0 y x) (rm_eq b y x)]
  show v (r0_0.idx (ix4 b 0 y x)) = v (ix4 b 0 y x)
  exact congrArg v (funext fun a => Fin.ext (by
    match a with
    | ⟨0, _⟩ => show 0 + 1 * b.val = b.val; omega
    | ⟨1, _⟩ => show 0 + 1 * 0 = 0; omega
    | ⟨2, _⟩ => show 0 + 1 * y.val = y.val; omega
    | ⟨3, _⟩ => show 0 + 1 * x.val = x.val; omega))

theorem leaf1 (x0 : Vec Ideal S4x8x256x256 .f32) (h : S4x1x256x256.ShapeCasts S4x256x256) (b : Fin 4) :
    imgOf (shapeCast S4x256x256 (View.ld x0 r0_1) h) b = fun y x => x0 (ix4 b 0 y x) := by
  funext y x
  show shapeCast S4x256x256 (View.ld x0 r0_1) h (ix3 b y x) = _
  rw [shapeCast_apply _ h (ix3 b y x) (ix4 b 0 y x) (rm_eq b y x)]
  show x0 (r0_1.idx (ix4 b 0 y x)) = x0 (ix4 b 0 y x)
  exact congrArg x0 (funext fun a => Fin.ext (by
    match a with
    | ⟨0, _⟩ => show 0 + 1 * b.val = b.val; omega
    | ⟨1, _⟩ => show 0 + 1 * 0 = 0; omega
    | ⟨2, _⟩ => show 0 + 1 * y.val = y.val; omega
    | ⟨3, _⟩ => show 0 + 1 * x.val = x.val; omega))

theorem leaf2 (x0 : Vec Ideal S4x8x256x256 .f32) (h : S4x1x256x256.ShapeCasts S4x256x256) (b : Fin 4) :
    imgOf (shapeCast S4x256x256 (View.ld x0 r0_2) h) b = fun y x => x0 (ix4 b 1 y x) := by
  funext y x
  show shapeCast S4x256x256 (View.ld x0 r0_2) h (ix3 b y x) = _
  rw [shapeCast_apply _ h (ix3 b y x) (ix4 b 0 y x) (rm_eq b y x)]
  show x0 (r0_2.idx (ix4 b 0 y x)) = x0 (ix4 b 1 y x)
  exact congrArg x0 (funext fun a => Fin.ext (by
    match a with
    | ⟨0, _⟩ => show 0 + 1 * b.val = b.val; omega
    | ⟨1, _⟩ => show 1 + 1 * 0 = 1; omega
    | ⟨2, _⟩ => show 0 + 1 * y.val = y.val; omega
    | ⟨3, _⟩ => show 0 + 1 * x.val = x.val; omega))

theorem leaf3 (x0 : Vec Ideal S4x8x256x256 .f32) (h : S4x1x256x256.ShapeCasts S4x256x256) (b : Fin 4) :
    imgOf (shapeCast S4x256x256 (View.ld x0 r0_3) h) b = fun y x => x0 (ix4 b 2 y x) := by
  funext y x
  show shapeCast S4x256x256 (View.ld x0 r0_3) h (ix3 b y x) = _
  rw [shapeCast_apply _ h (ix3 b y x) (ix4 b 0 y x) (rm_eq b y x)]
  show x0 (r0_3.idx (ix4 b 0 y x)) = x0 (ix4 b 2 y x)
  exact congrArg x0 (funext fun a => Fin.ext (by
    match a with
    | ⟨0, _⟩ => show 0 + 1 * b.val = b.val; omega
    | ⟨1, _⟩ => show 2 + 1 * 0 = 2; omega
    | ⟨2, _⟩ => show 0 + 1 * y.val = y.val; omega
    | ⟨3, _⟩ => show 0 + 1 * x.val = x.val; omega))

theorem leaf4 (x0 : Vec Ideal S4x8x256x256 .f32) (h : S4x1x256x256.ShapeCasts S4x256x256) (b : Fin 4) :
    imgOf (shapeCast S4x256x256 (View.ld x0 r0_4) h) b = fun y x => x0 (ix4 b 3 y x) := by
  funext y x
  show shapeCast S4x256x256 (View.ld x0 r0_4) h (ix3 b y x) = _
  rw [shapeCast_apply _ h (ix3 b y x) (ix4 b 0 y x) (rm_eq b y x)]
  show x0 (r0_4.idx (ix4 b 0 y x)) = x0 (ix4 b 3 y x)
  exact congrArg x0 (funext fun a => Fin.ext (by
    match a with
    | ⟨0, _⟩ => show 0 + 1 * b.val = b.val; omega
    | ⟨1, _⟩ => show 3 + 1 * 0 = 3; omega
    | ⟨2, _⟩ => show 0 + 1 * y.val = y.val; omega
    | ⟨3, _⟩ => show 0 + 1 * x.val = x.val; omega))

theorem leaf5 (x0 : Vec Ideal S4x8x256x256 .f32) (h : S4x1x256x256.ShapeCasts S4x256x256) (b : Fin 4) :
    imgOf (shapeCast S4x256x256 (View.ld x0 r0_5) h) b = fun y x => x0 (ix4 b 4 y x) := by
  funext y x
  show shapeCast S4x256x256 (View.ld x0 r0_5) h (ix3 b y x) = _
  rw [shapeCast_apply _ h (ix3 b y x) (ix4 b 0 y x) (rm_eq b y x)]
  show x0 (r0_5.idx (ix4 b 0 y x)) = x0 (ix4 b 4 y x)
  exact congrArg x0 (funext fun a => Fin.ext (by
    match a with
    | ⟨0, _⟩ => show 0 + 1 * b.val = b.val; omega
    | ⟨1, _⟩ => show 4 + 1 * 0 = 4; omega
    | ⟨2, _⟩ => show 0 + 1 * y.val = y.val; omega
    | ⟨3, _⟩ => show 0 + 1 * x.val = x.val; omega))

theorem leaf6 (x0 : Vec Ideal S4x8x256x256 .f32) (h : S4x1x256x256.ShapeCasts S4x256x256) (b : Fin 4) :
    imgOf (shapeCast S4x256x256 (View.ld x0 r0_6) h) b = fun y x => x0 (ix4 b 5 y x) := by
  funext y x
  show shapeCast S4x256x256 (View.ld x0 r0_6) h (ix3 b y x) = _
  rw [shapeCast_apply _ h (ix3 b y x) (ix4 b 0 y x) (rm_eq b y x)]
  show x0 (r0_6.idx (ix4 b 0 y x)) = x0 (ix4 b 5 y x)
  exact congrArg x0 (funext fun a => Fin.ext (by
    match a with
    | ⟨0, _⟩ => show 0 + 1 * b.val = b.val; omega
    | ⟨1, _⟩ => show 5 + 1 * 0 = 5; omega
    | ⟨2, _⟩ => show 0 + 1 * y.val = y.val; omega
    | ⟨3, _⟩ => show 0 + 1 * x.val = x.val; omega))

theorem leaf7 (x0 : Vec Ideal S4x8x256x256 .f32) (h : S4x1x256x256.ShapeCasts S4x256x256) (b : Fin 4) :
    imgOf (shapeCast S4x256x256 (View.ld x0 r0_7) h) b = fun y x => x0 (ix4 b 6 y x) := by
  funext y x
  show shapeCast S4x256x256 (View.ld x0 r0_7) h (ix3 b y x) = _
  rw [shapeCast_apply _ h (ix3 b y x) (ix4 b 0 y x) (rm_eq b y x)]
  show x0 (r0_7.idx (ix4 b 0 y x)) = x0 (ix4 b 6 y x)
  exact congrArg x0 (funext fun a => Fin.ext (by
    match a with
    | ⟨0, _⟩ => show 0 + 1 * b.val = b.val; omega
    | ⟨1, _⟩ => show 6 + 1 * 0 = 6; omega
    | ⟨2, _⟩ => show 0 + 1 * y.val = y.val; omega
    | ⟨3, _⟩ => show 0 + 1 * x.val = x.val; omega))

theorem leaf8 (x0 : Vec Ideal S4x8x256x256 .f32) (h : S4x1x256x256.ShapeCasts S4x256x256) (b : Fin 4) :
    imgOf (shapeCast S4x256x256 (View.ld x0 r0_8) h) b = fun y x => x0 (ix4 b 7 y x) := by
  funext y x
  show shapeCast S4x256x256 (View.ld x0 r0_8) h (ix3 b y x) = _
  rw [shapeCast_apply _ h (ix3 b y x) (ix4 b 0 y x) (rm_eq b y x)]
  show x0 (r0_8.idx (ix4 b 0 y x)) = x0 (ix4 b 7 y x)
  exact congrArg x0 (funext fun a => Fin.ext (by
    match a with
    | ⟨0, _⟩ => show 0 + 1 * b.val = b.val; omega
    | ⟨1, _⟩ => show 7 + 1 * 0 = 7; omega
    | ⟨2, _⟩ => show 0 + 1 * y.val = y.val; omega
    | ⟨3, _⟩ => show 0 + 1 * x.val = x.val; omega))

theorem hz : (![0, 0, 0, 0] : Fin 4 → Nat) = fun _ => 0 := funext fun a => by fin_cases a <;> rfl

/-- What the body leaves in the output block, read at pixel (y, x) of image b: the kernel's arrangement of the
    propagation step on image b of the three input blocks. -/
theorem out_eq (x0 : Vec Ideal S4x8x256x256 .f32) (x1 x2 : Vec Ideal S4x1x256x256 .f32) (b : Fin 4) (y x : Fin 256) :
    out0_3 x0 x1 x2 (ix4 b 0 y x)
      = Kpix (fun k yy xx => x0 (ix4 b k yy xx)) (fun yy xx => x1 (ix4 b 0 yy xx)) (fun yy xx => x2 (ix4 b 0 yy xx)) y x := by
  unfold out0_3
  rw [View.canon_unit_zero hz]
  simp only [k0_pay1]
  rw [cast_back]
  simp only [k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, scalar_zero, scalar_one,
    Ideal.ofBits_def, Ideal.ofBits_zero_f32, Ideal.ofBits_one_f32,
    imgOf_addf, imgOf_mulf, imgOf_subf, imgOf_divf, imgOf_absf, imgOf_broadcast,
    imgOf_colsR, imgOf_colsL, imgOf_rowsD, imgOf_rowsU,
    leaf0, leaf1, leaf2, leaf3, leaf4, leaf5, leaf6, leaf7, leaf8]
  rfl

end Cert.KernelIdeal.Block

end
-- ==== Proof.KernelArray.lean ====
/-
  From blocks to the array: the kernel's result array as ONE function of its three argument arrays.

  The grid has sixteen points; point t stages images 4t … 4t + 3 of every argument and writes back images 4t … 4t + 3 of
  the result. A pixel of the result depends only on its own image of each argument, so what point t writes back is block t
  of one whole-array function G; the sixteen blocks cover the array (image n lies in block n / 4), and the array after the
  run is G of the arguments.
-/
import proofs.«129089_j25074019074065_2_alg».proof.Proof.Gen.KernelIdeal.Frame
import proofs.«129089_j25074019074065_2_alg».proof.Proof.Gen.KernelIdeal.Value
import proofs.«129089_j25074019074065_2_alg».proof.Proof.KernelBlock
import proofs.«129089_j25074019074065_2_alg».proof.Proof.PixelLaw
import Idealize.ShloMosaic.Lib.ValueIdx
import Idealize.ShloMosaic.Lib.Pipeline.Value

noncomputable section

namespace Cert.KernelIdeal.Whole

open Cert.KernelIdeal Cert.KernelIdeal.Gen Cert.Cspn Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The result array as ONE function of the three argument arrays: entry (n, 0, y, x) is the kernel's arrangement of
    the propagation step on image n of each argument, at pixel (y, x). -/
def G (a0 : S64x8x256x256.Idx → Elt Ideal .f32) (a1 a2 : S64x1x256x256.Idx → Elt Ideal .f32) :
    S64x1x256x256.Idx → Elt Ideal .f32 := fun i =>
  Kpix (fun k yy xx => a0 (ix4 (⟨(i 0).val, (i 0).isLt⟩ : Fin 64) k yy xx))
    (fun yy xx => a1 (ix4 (⟨(i 0).val, (i 0).isLt⟩ : Fin 64) (0 : Fin 1) yy xx))
    (fun yy xx => a2 (ix4 (⟨(i 0).val, (i 0).isLt⟩ : Fin 64) (0 : Fin 1) yy xx))
    (⟨(i 2).val, (i 2).isLt⟩ : Fin 256) (⟨(i 3).val, (i 3).isLt⟩ : Fin 256)

/-- The printed index maps, decided over the sixteen grid points: every window's block index is (t, 0, 0, 0). -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = 0
    ∧ win0_1.index t (0 : Fin 4) = win0_3.index t (0 : Fin 4) ∧ win0_1.index t (1 : Fin 4) = 0
    ∧ win0_1.index t (2 : Fin 4) = 0 ∧ win0_1.index t (3 : Fin 4) = 0
    ∧ win0_2.index t (0 : Fin 4) = win0_3.index t (0 : Fin 4) ∧ win0_2.index t (1 : Fin 4) = 0
    ∧ win0_2.index t (2 : Fin 4) = 0 ∧ win0_2.index t (3 : Fin 4) = 0
    ∧ win0_3.index t (1 : Fin 4) = 0 ∧ win0_3.index t (2 : Fin 4) = 0 ∧ win0_3.index t (3 : Fin 4) = 0
    ∧ win0_3.index t (0 : Fin 4) ≤ 15 :=
  (by decide +kernel : ∀ t : Fin grid0.N, _)

/-- Every block of four images is some point's. -/
theorem idx_onto : ∀ q : Fin 16, ∃ t : Fin cfg0.N, win0_3.index t = ![q.val, 0, 0, 0] :=
  (by decide +kernel : ∀ q : Fin 16, ∃ t : Fin grid0.N, win0_3.index t = ![q.val, 0, 0, 0])

/-- What point t writes back is block t of G of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Cert.KernelIdeal.Value.flushed3]
  obtain ⟨e00, e01, e02, e03, e10, e11, e12, e13, e20, e21, e22, e23, e31, e32, e33, -⟩ := idx_facts t
  funext j
  obtain ⟨b, y, x, rfl⟩ : ∃ (b : Fin 4) (y x : Fin 256), j = ix4 b (0 : Fin 1) y x :=
    ⟨j 0, j 2, j 3, funext fun a => by
      match a with
      | ⟨0, _⟩ => rfl
      | ⟨1, _⟩ => exact Fin.ext (by have h1 : (j 1).val < 1 := (j 1).isLt; show (j 1).val = 0; omega)
      | ⟨2, _⟩ => rfl
      | ⟨3, _⟩ => rfl⟩
  show out0_3 (iblk m c 0 t) (iblk m c 1 t) (iblk m c 2 t) (ix4 b (0 : Fin 1) y x)
    = G (V m c main_arg0) (V m c main_arg1) (V m c main_arg2) (((cfg0.win 3).blk t).view.emb (ix4 b (0 : Fin 1) y x))
  refine (Cert.KernelIdeal.Block.out_eq (iblk m c 0 t) (iblk m c 1 t) (iblk m c 2 t) b y x).trans ?_
  unfold G
  have hA : (fun (k : Fin 8) (yy xx : Fin 256) => iblk m c 0 t (ix4 b k yy xx))
      = fun (k : Fin 8) (yy xx : Fin 256) => V m c main_arg0 (ix4 (⟨((((cfg0.win 3).blk t).view.emb (ix4 b (0 : Fin 1) y x)) 0).val,
          ((((cfg0.win 3).blk t).view.emb (ix4 b (0 : Fin 1) y x)) 0).isLt⟩ : Fin 64) k yy xx) := by
    funext k yy xx
    show V m c main_arg0 (((cfg0.win 0).blk t).view.emb (ix4 b k yy xx)) = _
    exact congrArg (V m c main_arg0) (funext fun a => Fin.ext (by
      match a with
      | ⟨0, _⟩ => show win0_0.index t (0 : Fin 4) * 4 + 1 * b.val = win0_3.index t (0 : Fin 4) * 4 + 1 * b.val; omega
      | ⟨1, _⟩ => show win0_0.index t (1 : Fin 4) * 8 + 1 * k.val = k.val; omega
      | ⟨2, _⟩ => show win0_0.index t (2 : Fin 4) * 256 + 1 * yy.val = yy.val; omega
      | ⟨3, _⟩ => show win0_0.index t (3 : Fin 4) * 256 + 1 * xx.val = xx.val; omega))
  have hcu : (fun (yy xx : Fin 256) => iblk m c 1 t (ix4 b (0 : Fin 1) yy xx))
      = fun (yy xx : Fin 256) => V m c main_arg1 (ix4 (⟨((((cfg0.win 3).blk t).view.emb (ix4 b (0 : Fin 1) y x)) 0).val,
          ((((cfg0.win 3).blk t).view.emb (ix4 b (0 : Fin 1) y x)) 0).isLt⟩ : Fin 64) (0 : Fin 1) yy xx) := by
    funext yy xx
    show V m c main_arg1 (((cfg0.win 1).blk t).view.emb (ix4 b (0 : Fin 1) yy xx)) = _
    exact congrArg (V m c main_arg1) (funext fun a => Fin.ext (by
      match a with
      | ⟨0, _⟩ => show win0_1.index t (0 : Fin 4) * 4 + 1 * b.val = win0_3.index t (0 : Fin 4) * 4 + 1 * b.val; omega
      | ⟨1, _⟩ => show win0_1.index t (1 : Fin 4) * 1 + 1 * 0 = 0; omega
      | ⟨2, _⟩ => show win0_1.index t (2 : Fin 4) * 256 + 1 * yy.val = yy.val; omega
      | ⟨3, _⟩ => show win0_1.index t (3 : Fin 4) * 256 + 1 * xx.val = xx.val; omega))
  have hco : (fun (yy xx : Fin 256) => iblk m c 2 t (ix4 b (0 : Fin 1) yy xx))
      = fun (yy xx : Fin 256) => V m c main_arg2 (ix4 (⟨((((cfg0.win 3).blk t).view.emb (ix4 b (0 : Fin 1) y x)) 0).val,
          ((((cfg0.win 3).blk t).view.emb (ix4 b (0 : Fin 1) y x)) 0).isLt⟩ : Fin 64) (0 : Fin 1) yy xx) := by
    funext yy xx
    show V m c main_arg2 (((cfg0.win 2).blk t).view.emb (ix4 b (0 : Fin 1) yy xx)) = _
    exact congrArg (V m c main_arg2) (funext fun a => Fin.ext (by
      match a with
      | ⟨0, _⟩ => show win0_2.index t (0 : Fin 4) * 4 + 1 * b.val = win0_3.index t (0 : Fin 4) * 4 + 1 * b.val; omega
      | ⟨1, _⟩ => show win0_2.index t (1 : Fin 4) * 1 + 1 * 0 = 0; omega
      | ⟨2, _⟩ => show win0_2.index t (2 : Fin 4) * 256 + 1 * yy.val = yy.val; omega
      | ⟨3, _⟩ => show win0_2.index t (3 : Fin 4) * 256 + 1 * xx.val = xx.val; omega))
  have hy : (⟨((((cfg0.win 3).blk t).view.emb (ix4 b (0 : Fin 1) y x)) 2).val,
      ((((cfg0.win 3).blk t).view.emb (ix4 b (0 : Fin 1) y x)) 2).isLt⟩ : Fin 256) = y :=
    Fin.ext (by show win0_3.index t (2 : Fin 4) * 256 + 1 * y.val = y.val; omega)
  have hx : (⟨((((cfg0.win 3).blk t).view.emb (ix4 b (0 : Fin 1) y x)) 3).val,
      ((((cfg0.win 3).blk t).view.emb (ix4 b (0 : Fin 1) y x)) 3).isLt⟩ : Fin 256) = x :=
    Fin.ext (by show win0_3.index t (3 : Fin 4) * 256 + 1 * x.val = x.val; omega)
  rw [hA, hcu, hco, hy, hx]

/-- An index of the array is in point t's block iff each coordinate is in the block's range on its axis. -/
theorem mem_blk (t : Fin cfg0.N) (i : S64x1x256x256.Idx) :
    i ∈ ((cfg0.win 3).blk t).view.set ↔ ∀ a : Fin 4, win0_3.index t a * S4x1x256x256.size a ≤ (i a).val
      ∧ (i a).val < win0_3.index t a * S4x1x256x256.size a + S4x1x256x256.size a := by
  show i ∈ ((View.whole main_v0).slice (win0_3.rect t)).set ↔ _
  rw [View.set_slice_whole, Rect.mem_set_unit]
  exact Iff.rfl

/-- Every index of the result array lies in the block of the point that holds its image: image n in block n / 4. -/
theorem cover (i : S64x1x256x256.Idx) : ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 256 := (i 2).isLt
  have h3 : (i 3).val < 256 := (i 3).isLt
  obtain ⟨t, ht⟩ := idx_onto ⟨(i 0).val / 4, by omega⟩
  have q0 : win0_3.index t (0 : Fin 4) = (i 0).val / 4 := congrFun ht 0
  have q1 : win0_3.index t (1 : Fin 4) = 0 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 4 ≤ (i 0).val ∧ (i 0).val < win0_3.index t (0 : Fin 4) * 4 + 4; omega
  | ⟨1, _⟩ => show win0_3.index t (1 : Fin 4) * 1 ≤ (i 1).val ∧ (i 1).val < win0_3.index t (1 : Fin 4) * 1 + 1; omega
  | ⟨2, _⟩ => show win0_3.index t (2 : Fin 4) * 256 ≤ (i 2).val ∧ (i 2).val < win0_3.index t (2 : Fin 4) * 256 + 256; omega
  | ⟨3, _⟩ => show win0_3.index t (3 : Fin 4) * 256 ≤ (i 3).val ∧ (i 3).val < win0_3.index t (3 : Fin 4) * 256 + 256; omega

/-- The result array after the run is G of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2)) (fun t _ => flushed_eq m c t) cover

/-- The kernel's run with its result array named as G of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.RefTerm.lean ====
/-
  The reference's result as a term of its three arguments, read pixel by pixel.

  The reference normalises the eight affinities by the sum of their absolute values, puts 1 − (their sum) between the
  fourth and the fifth as the centre's weight, and for each of the nine positions of the 3 × 3 window multiplies the
  weight by the current images moved one way (the coarse images, unmoved, at the centre) and moves the product back the
  other way; a move is a padding by one pixel of zeros followed by a cut at an offset. Read at pixel (y, x) of image n
  the sum of the nine terms is the reference's arrangement of the propagation step (PixelLaw) on image n of the
  arguments.
-/
import proofs.«129089_j25074019074065_2_alg».proof.Proof.Gen.ReferenceIdeal
import proofs.«129089_j25074019074065_2_alg».proof.Proof.PixelLaw
import Idealize.ShloMosaic.PureOps.Ideal.Laws
import Idealize.ShloMosaic.Lib.IdealHost
import Idealize.ShloMosaic.Lib.ValueIdx
import Idealize.ShloMosaic.Lib.Pipeline.Value
import Idealize.ShloMosaic.Lib.KernelVsHost
import Idealize.ShloMosaic.Lib.DynamicIndex

noncomputable section

namespace Cert.ReferenceIdeal.Term

open Cert.ReferenceIdeal Cert.ReferenceIdeal.Gen Cert.Cspn Idealize.ShloMosaic Idealize.ShloMosaic.ValueIdx

variable {F : FTy → Type} [FloatOps F]

/-- An array of 64 images padded by one pixel of the converted integer 0 on every side of each image, then cut back to
    256 by 256 from the start (a, b, c): each image moved by (1 − b, 1 − c) pixels, zeros moving in. -/
def shiftZ (f : (⟨S64x256x256, .f32⟩ : BufTy).Contents (Elt F)) (a b c : BitVec 32) :
    (⟨S64x256x256, .f32⟩ : BufTy).Contents (Elt F) :=
  Host.dynamicSlice S64x256x256
    (pad S64x258x258 ![0, 1, 1] ![0, 1, 1] ![0, 0, 0] f (sitofp .f32 (constantI S_ 32 0#32))
      pads_S64x256x256_S64x258x258_000_110_110 h_S_)
    (fun k => (((![constantI S_ 32 a, constantI S_ 32 b, constantI S_ 32 c] : Fin 3 → (⟨S_, .i32⟩ : BufTy).Contents (Elt F))) k
      (Shape.Idx.first h_S_)).toInt)
    sliceFits_S64x258x258_S64x256x256

/-- Read at pixel (y, x) of image n, the moved array is image n of the operand read at (y + oy − 1, x + ox − 1), and 0
    where that pixel is outside. -/
theorem shiftZ_apply (f : S64x256x256.Idx → EReal) (b c : BitVec 32) (oy ox : Nat) (hoy : oy ≤ 2) (hox : ox ≤ 2)
    (hb : b.toInt = (oy : Int)) (hc : c.toInt = (ox : Int)) (n : Fin 64) (y x : Fin 256) :
    shiftZ (F := Ideal) f 0#32 b c (ix3 n y x) = shY oy (shX ox (fun yy xx => f (ix3 n yy xx))) y x := by
  have hyl := y.isLt
  have hxl := x.isLt
  unfold shiftZ
  have hoff : S64x258x258.Slices ![0, oy, ox] S64x256x256 := ⟨rfl, fun a => by
    match a with
    | ⟨0, _⟩ => show 0 + 64 ≤ 64; omega
    | ⟨1, _⟩ => show oy + 256 ≤ 258; omega
    | ⟨2, _⟩ => show ox + 256 ≤ 258; omega⟩
  rw [Host.dynamicSlice_eq_extractStridedSlice S64x256x256 _ _ ![0, oy, ox] sliceFits_S64x258x258_S64x256x256 hoff
    (fun a => by
      match a with
      | ⟨0, _⟩ => show (0#32 : BitVec 32).toInt = ((0 : Nat) : Int); decide
      | ⟨1, _⟩ => exact hb
      | ⟨2, _⟩ => exact hc)]
  rw [extractStridedSlice_apply ![0, oy, ox] _ hoff (ix3 n y x)
    (ix3 (⟨n.val, by omega⟩ : Fin 64) (⟨y.val + oy, by omega⟩ : Fin 258) (⟨x.val + ox, by omega⟩ : Fin 258))
    (fun a => by
      match a with
      | ⟨0, _⟩ => show n.val = 0 + n.val; omega
      | ⟨1, _⟩ => show y.val + oy = oy + y.val; omega
      | ⟨2, _⟩ => show x.val + ox = ox + x.val; omega)]
  have hfill : (sitofp (F := Ideal) .f32 (constantI S_ 32 0#32)) (Shape.Idx.first h_S_) = (0 : EReal) := by
    show (((0#32 : BitVec 32).toInt : ℝ) : EReal) = 0
    simp
  unfold shY shX
  dsimp only
  by_cases h1 : 1 ≤ y.val + oy ∧ y.val + oy ≤ 256
  · by_cases h2 : 1 ≤ x.val + ox ∧ x.val + ox ≤ 256
    · rw [dif_pos h1, dif_pos h2]
      exact pad_apply_of_inside _ _ _ f _ pads_S64x256x256_S64x258x258_000_110_110 h_S_ _
        (ix3 n ⟨y.val + oy - 1, by omega⟩ ⟨x.val + ox - 1, by omega⟩) (fun a => by
          match a with
          | ⟨0, _⟩ => show n.val = 0 + n.val * (0 + 1); omega
          | ⟨1, _⟩ => show y.val + oy = 1 + (y.val + oy - 1) * (0 + 1); omega
          | ⟨2, _⟩ => show x.val + ox = 1 + (x.val + ox - 1) * (0 + 1); omega)
    · rw [dif_pos h1, dif_neg h2]
      rw [pad_apply_of_not_inside _ _ _ f _ pads_S64x256x256_S64x258x258_000_110_110 h_S_ _ (2 : Fin 3) (by
        show ¬(1 ≤ x.val + ox ∧ (x.val + ox - 1) % (0 + 1) = 0 ∧ (x.val + ox - 1) / (0 + 1) < 256); omega)]
      exact hfill
  · rw [dif_neg h1]
    rw [pad_apply_of_not_inside _ _ _ f _ pads_S64x256x256_S64x258x258_000_110_110 h_S_ _ (1 : Fin 3) (by
      show ¬(1 ≤ y.val + oy ∧ (y.val + oy - 1) % (0 + 1) = 0 ∧ (y.val + oy - 1) / (0 + 1) < 256); omega)]
    exact hfill

/-! ## The nine weights -/

/-- Σ_k |affinity|, one value per pixel, spread back over the eight neighbour channels. -/
def bsum (x0 : (⟨S64x8x256x256, .f32⟩ : BufTy).Contents (Elt F)) : (⟨S64x8x256x256, .f32⟩ : BufTy).Contents (Elt F) :=
  broadcastInDim S64x8x256x256 ![0, 1, 2, 3] bcast_S64x1x256x256_S64x8x256x256_0_1_2_3
    (broadcastInDim S64x1x256x256 ![0, 2, 3] bcast_S64x256x256_S64x1x256x256_0_2_3
      (Host.reduceAdd (Host.absf x0) (constant S_ .f32 0x00000000#32) reducesTo_S64x8x256x256_S64x256x256_d1 h_S_))

/-- Σ_k affinity, one value per pixel, as an array with a unit channel axis. -/
def braw (x0 : (⟨S64x8x256x256, .f32⟩ : BufTy).Contents (Elt F)) : (⟨S64x1x256x256, .f32⟩ : BufTy).Contents (Elt F) :=
  broadcastInDim S64x1x256x256 ![0, 2, 3] bcast_S64x256x256_S64x1x256x256_0_2_3
    (Host.reduceAdd x0 (constant S_ .f32 0x00000000#32) reducesTo_S64x8x256x256_S64x256x256_d1 h_S_)

/-- The nine weights of the 3 × 3 window: the first four normalised affinities, 1 − Σ_k affinity for the centre, the
    last four normalised affinities. -/
def newAff (x0 : (⟨S64x8x256x256, .f32⟩ : BufTy).Contents (Elt F)) : (⟨S64x9x256x256, .f32⟩ : BufTy).Contents (Elt F) :=
  concatenate S64x9x256x256 1
    [⟨S64x4x256x256, extractStridedSlice S64x4x256x256 ![0, 0, 0, 0] (Host.divf x0 (bsum x0)) slices_S64x8x256x256_S64x4x256x256_0_0_0_0⟩,
     ⟨S64x1x256x256, subf (broadcastInDim S64x1x256x256 ![] bcast_S_S64x1x256x256 (constant S_ .f32 0x3F800000#32)) (braw x0)⟩,
     ⟨S64x4x256x256, extractStridedSlice S64x4x256x256 ![0, 4, 0, 0] (Host.divf x0 (bsum x0)) slices_S64x8x256x256_S64x4x256x256_0_4_0_0⟩]
    concatenates_S64x4x256x256_S64x1x256x256_S64x4x256x256_S64x9x256x256_d1

/-- Weight k of the window as 64 images. -/
def weight (x0 : (⟨S64x8x256x256, .f32⟩ : BufTy).Contents (Elt F)) (k : Nat) (hk : S64x9x256x256.Slices ![0, k, 0, 0] S64x1x256x256) :
    (⟨S64x256x256, .f32⟩ : BufTy).Contents (Elt F) :=
  shapeCast S64x256x256 (extractStridedSlice S64x1x256x256 ![0, k, 0, 0] (newAff x0) hk) shapeCasts_S64x1x256x256_S64x256x256

/-- A segmentation argument as 64 images. -/
def cur3 (x1 : (⟨S64x1x256x256, .f32⟩ : BufTy).Contents (Elt F)) : (⟨S64x256x256, .f32⟩ : BufTy).Contents (Elt F) :=
  shapeCast S64x256x256 x1 shapeCasts_S64x1x256x256_S64x256x256

theorem rm64 (n : Fin 64) (y x : Fin 256) :
    (S64x1x256x256.rowMajor (ix4 n (0 : Fin 1) y x)).val = (S64x256x256.rowMajor (ix3 n y x)).val := by
  rw [Shape.rowMajor_val_four, Shape.rowMajor_val_three]
  show ((n.val * 1 + 0) * 256 + y.val) * 256 + x.val = (n.val * 256 + y.val) * 256 + x.val
  omega

theorem cur3_apply (x1 : S64x1x256x256.Idx → EReal) (n : Fin 64) (y x : Fin 256) :
    cur3 (F := Ideal) x1 (ix3 n y x) = x1 (ix4 n (0 : Fin 1) y x) :=
  shapeCast_apply x1 shapeCasts_S64x1x256x256_S64x256x256 (ix3 n y x) (ix4 n (0 : Fin 1) y x) (rm64 n y x)

/-- The host's sum of the absolute values over the eight neighbours, at a pixel of image n. -/
theorem sumAbs_apply (x0 : S64x8x256x256.Idx → EReal) (n : Fin 64) (y x : Fin 256) :
    (Host.reduceAdd (F := Ideal) (Host.absf x0) (constant S_ .f32 0x00000000#32) reducesTo_S64x8x256x256_S64x256x256_d1 h_S_) (ix3 n y x)
      = sumAbs (fun k yy xx => x0 (ix4 n k yy xx)) y x := by
  simp only [Host.reduceAdd, Ideal.hostReduceAdd_def]
  rw [Ideal.hostReduceAdd_single reducesTo_S64x8x256x256_S64x256x256_d1 (by decide)]
  unfold sumAbs
  refine congrArg₂ (· + ·) Ideal.ofBits_zero_f32 (Finset.sum_congr rfl fun k _ => ?_)
  have e : ∀ (h : S64x8x256x256.Reduces [1] S64x256x256), h.lift (ix3 n y x) k = ix4 n ⟨k.val, k.isLt⟩ y x := fun h =>
    funext fun a => Fin.ext (by match a with | ⟨0, _⟩ => rfl | ⟨1, _⟩ => rfl | ⟨2, _⟩ => rfl | ⟨3, _⟩ => rfl)
  show max (x0 _) (-(x0 _)) = _
  rw [e]
  rfl

/-- The host's sum over the eight neighbours, at a pixel of image n. -/
theorem rawR_apply (x0 : S64x8x256x256.Idx → EReal) (n : Fin 64) (y x : Fin 256) :
    (Host.reduceAdd (F := Ideal) x0 (constant S_ .f32 0x00000000#32) reducesTo_S64x8x256x256_S64x256x256_d1 h_S_) (ix3 n y x)
      = rawR (fun k yy xx => x0 (ix4 n k yy xx)) y x := by
  simp only [Host.reduceAdd, Ideal.hostReduceAdd_def]
  rw [Ideal.hostReduceAdd_single reducesTo_S64x8x256x256_S64x256x256_d1 (by decide)]
  unfold rawR
  refine congrArg₂ (· + ·) Ideal.ofBits_zero_f32 (Finset.sum_congr rfl fun k _ => ?_)
  have e : ∀ (h : S64x8x256x256.Reduces [1] S64x256x256), h.lift (ix3 n y x) k = ix4 n ⟨k.val, k.isLt⟩ y x := fun h =>
    funext fun a => Fin.ext (by match a with | ⟨0, _⟩ => rfl | ⟨1, _⟩ => rfl | ⟨2, _⟩ => rfl | ⟨3, _⟩ => rfl)
  rw [e]
  rfl

theorem bsum_apply (x0 : S64x8x256x256.Idx → EReal) (n : Fin 64) (k : Fin 8) (y x : Fin 256) :
    bsum (F := Ideal) x0 (ix4 n k y x) = sumAbs (fun k yy xx => x0 (ix4 n k yy xx)) y x := by
  unfold bsum
  rw [broadcastInDim_apply _ bcast_S64x1x256x256_S64x8x256x256_0_1_2_3 _ (ix4 n k y x) (ix4 n (0 : Fin 1) y x) (fun a => match a with
    | ⟨0, _⟩ => by show n.val = if (64 : Nat) = 1 then 0 else n.val; rw [if_neg (by decide)]
    | ⟨1, _⟩ => by show 0 = if (1 : Nat) = 1 then 0 else k.val; rw [if_pos rfl]
    | ⟨2, _⟩ => by show y.val = if (256 : Nat) = 1 then 0 else y.val; rw [if_neg (by decide)]
    | ⟨3, _⟩ => by show x.val = if (256 : Nat) = 1 then 0 else x.val; rw [if_neg (by decide)])]
  rw [broadcastInDim_apply _ bcast_S64x256x256_S64x1x256x256_0_2_3 _ (ix4 n (0 : Fin 1) y x) (ix3 n y x) (fun a => match a with
    | ⟨0, _⟩ => by show n.val = if (64 : Nat) = 1 then 0 else n.val; rw [if_neg (by decide)]
    | ⟨1, _⟩ => by show y.val = if (256 : Nat) = 1 then 0 else y.val; rw [if_neg (by decide)]
    | ⟨2, _⟩ => by show x.val = if (256 : Nat) = 1 then 0 else x.val; rw [if_neg (by decide)])]
  exact sumAbs_apply x0 n y x

theorem braw_apply (x0 : S64x8x256x256.Idx → EReal) (n : Fin 64) (y x : Fin 256) :
    braw (F := Ideal) x0 (ix4 n (0 : Fin 1) y x) = rawR (fun k yy xx => x0 (ix4 n k yy xx)) y x := by
  unfold braw
  rw [broadcastInDim_apply _ bcast_S64x256x256_S64x1x256x256_0_2_3 _ (ix4 n (0 : Fin 1) y x) (ix3 n y x) (fun a => match a with
    | ⟨0, _⟩ => by show n.val = if (64 : Nat) = 1 then 0 else n.val; rw [if_neg (by decide)]
    | ⟨1, _⟩ => by show y.val = if (256 : Nat) = 1 then 0 else y.val; rw [if_neg (by decide)]
    | ⟨2, _⟩ => by show x.val = if (256 : Nat) = 1 then 0 else x.val; rw [if_neg (by decide)])]
  exact rawR_apply x0 n y x

/-- The normalised affinity of neighbour k at a pixel of image n. -/
theorem quot_apply (x0 : S64x8x256x256.Idx → EReal) (n : Fin 64) (k : Fin 8) (y x : Fin 256) :
    Host.divf (F := Ideal) (φ := .f32) x0 (bsum (F := Ideal) x0) (ix4 n k y x) = wR (fun k yy xx => x0 (ix4 n k yy xx)) k y x := by
  show Ideal.div (x0 (ix4 n k y x)) (bsum (F := Ideal) x0 (ix4 n k y x)) = _
  rw [bsum_apply]
  rfl

/-- The first four weights are the first four normalised affinities. -/
theorem newAff_lo (x0 : S64x8x256x256.Idx → EReal) (n : Fin 64) (k : Nat) (hk : k < 4) (y x : Fin 256) :
    newAff (F := Ideal) x0 (ix4 n (⟨k, by omega⟩ : Fin 9) y x) = wR (fun k yy xx => x0 (ix4 n k yy xx)) ⟨k, by omega⟩ y x := by
  unfold newAff
  rw [concatenate_apply_piece (1 : Fin 4) _ _ (ix4 n (⟨k, by omega⟩ : Fin 9) y x) 0 (by show (0 : Nat) < 3; omega) S64x4x256x256 _ rfl rfl 0 rfl
    (ix4 n (⟨k, hk⟩ : Fin 4) y x)
    (fun b hb => by match b with | ⟨0, _⟩ => rfl | ⟨1, _⟩ => exact absurd rfl hb | ⟨2, _⟩ => rfl | ⟨3, _⟩ => rfl)
    (by show 0 + k = k; omega)]
  rw [extractStridedSlice_apply ![0, 0, 0, 0] _ slices_S64x8x256x256_S64x4x256x256_0_0_0_0 (ix4 n (⟨k, hk⟩ : Fin 4) y x)
    (ix4 n (⟨k, by omega⟩ : Fin 8) y x) (fun a => match a with
      | ⟨0, _⟩ => by show n.val = 0 + n.val; omega
      | ⟨1, _⟩ => by show k = 0 + k; omega
      | ⟨2, _⟩ => by show y.val = 0 + y.val; omega
      | ⟨3, _⟩ => by show x.val = 0 + x.val; omega)]
  exact quot_apply x0 n ⟨k, by omega⟩ y x

/-- The fifth weight is 1 − Σ_k affinity. -/
theorem newAff_mid (x0 : S64x8x256x256.Idx → EReal) (n : Fin 64) (y x : Fin 256) :
    newAff (F := Ideal) x0 (ix4 n (4 : Fin 9) y x) = 1 - rawR (fun k yy xx => x0 (ix4 n k yy xx)) y x := by
  unfold newAff
  rw [concatenate_apply_piece (1 : Fin 4) _ _ (ix4 n (4 : Fin 9) y x) 1 (by show (1 : Nat) < 3; omega) S64x1x256x256 _ rfl rfl 4 rfl
    (ix4 n (0 : Fin 1) y x)
    (fun b hb => by match b with | ⟨0, _⟩ => rfl | ⟨1, _⟩ => exact absurd rfl hb | ⟨2, _⟩ => rfl | ⟨3, _⟩ => rfl)
    (by show 4 + 0 = 4; omega)]
  show Ideal.ofBits .f32 0x3F800000#32 - braw (F := Ideal) x0 (ix4 n (0 : Fin 1) y x) = _
  rw [braw_apply, Ideal.ofBits_one_f32]

/-- The last four weights are the last four normalised affinities. -/
theorem newAff_hi (x0 : S64x8x256x256.Idx → EReal) (n : Fin 64) (k : Nat) (hk5 : 5 ≤ k) (hk9 : k < 9) (y x : Fin 256) :
    newAff (F := Ideal) x0 (ix4 n (⟨k, hk9⟩ : Fin 9) y x) = wR (fun k yy xx => x0 (ix4 n k yy xx)) ⟨k - 1, by omega⟩ y x := by
  unfold newAff
  rw [concatenate_apply_piece (1 : Fin 4) _ _ (ix4 n (⟨k, hk9⟩ : Fin 9) y x) 2 (by show (2 : Nat) < 3; omega) S64x4x256x256 _ rfl rfl 5 rfl
    (ix4 n (⟨k - 5, by omega⟩ : Fin 4) y x)
    (fun b hb => by match b with | ⟨0, _⟩ => rfl | ⟨1, _⟩ => exact absurd rfl hb | ⟨2, _⟩ => rfl | ⟨3, _⟩ => rfl)
    (by show 5 + (k - 5) = k; omega)]
  rw [extractStridedSlice_apply ![0, 4, 0, 0] _ slices_S64x8x256x256_S64x4x256x256_0_4_0_0 (ix4 n (⟨k - 5, by omega⟩ : Fin 4) y x)
    (ix4 n (⟨k - 1, by omega⟩ : Fin 8) y x) (fun a => match a with
      | ⟨0, _⟩ => by show n.val = 0 + n.val; omega
      | ⟨1, _⟩ => by show k - 1 = 4 + (k - 5); omega
      | ⟨2, _⟩ => by show y.val = 0 + y.val; omega
      | ⟨3, _⟩ => by show x.val = 0 + x.val; omega)]
  exact quot_apply x0 n ⟨k - 1, by omega⟩ y x

/-- Weight k as images: channel k of the nine weights. -/
theorem weight_apply (x0 : S64x8x256x256.Idx → EReal) (k : Nat) (hk9 : k < 9) (hk : S64x9x256x256.Slices ![0, k, 0, 0] S64x1x256x256)
    (n : Fin 64) (y x : Fin 256) :
    weight (F := Ideal) x0 k hk (ix3 n y x) = newAff (F := Ideal) x0 (ix4 n (⟨k, hk9⟩ : Fin 9) y x) := by
  unfold weight
  rw [shapeCast_apply _ shapeCasts_S64x1x256x256_S64x256x256 (ix3 n y x) (ix4 n (0 : Fin 1) y x) (rm64 n y x)]
  exact extractStridedSlice_apply ![0, k, 0, 0] _ hk (ix4 n (0 : Fin 1) y x) (ix4 n (⟨k, hk9⟩ : Fin 9) y x) (fun a => match a with
    | ⟨0, _⟩ => by show n.val = 0 + n.val; omega
    | ⟨1, _⟩ => by show k = k + 0; omega
    | ⟨2, _⟩ => by show y.val = 0 + y.val; omega
    | ⟨3, _⟩ => by show x.val = 0 + x.val; omega)

end Cert.ReferenceIdeal.Term

namespace Cert.ReferenceIdeal.Term

open Cert.ReferenceIdeal Cert.ReferenceIdeal.Gen Cert.Cspn Idealize.ShloMosaic Idealize.ShloMosaic.ValueIdx

variable {F : FTy → Type} [FloatOps F]

/-! ## The nine terms and their sum -/

/-- The reference's term for neighbour k: weight k times the current images moved one way, the product moved back. -/
def tap (x0 : (⟨S64x8x256x256, .f32⟩ : BufTy).Contents (Elt F)) (x1 : (⟨S64x1x256x256, .f32⟩ : BufTy).Contents (Elt F)) (k : Nat)
    (hk : S64x9x256x256.Slices ![0, k, 0, 0] S64x1x256x256) (b c b' c' : BitVec 32) : (⟨S64x256x256, .f32⟩ : BufTy).Contents (Elt F) :=
  shiftZ (mulf (weight x0 k hk) (shiftZ (cur3 x1) 0#32 b c)) 0#32 b' c'

theorem tap_apply (x0 : S64x8x256x256.Idx → EReal) (x1 : S64x1x256x256.Idx → EReal) (k : Nat) (hk9 : k < 9)
    (hk : S64x9x256x256.Slices ![0, k, 0, 0] S64x1x256x256) (b c b' c' : BitVec 32) (iy ix oy ox : Nat)
    (hiy : iy ≤ 2) (hix : ix ≤ 2) (hoy : oy ≤ 2) (hox : ox ≤ 2)
    (hb : b.toInt = (iy : Int)) (hc : c.toInt = (ix : Int)) (hb' : b'.toInt = (oy : Int)) (hc' : c'.toInt = (ox : Int))
    (n : Fin 64) (y x : Fin 256) :
    tap (F := Ideal) x0 x1 k hk b c b' c' (ix3 n y x)
      = tapR (fun yy xx => newAff (F := Ideal) x0 (ix4 n (⟨k, hk9⟩ : Fin 9) yy xx)) (fun yy xx => x1 (ix4 n (0 : Fin 1) yy xx)) iy ix oy ox y x := by
  unfold tap tapR
  rw [shiftZ_apply _ b' c' oy ox hoy hox hb' hc']
  have hF : (fun (yy xx : Fin 256) => (mulf (F := Ideal) (φ := .f32) (weight (F := Ideal) x0 k hk) (shiftZ (F := Ideal) (cur3 x1) 0#32 b c)) (ix3 n yy xx))
      = fun (yy xx : Fin 256) => newAff (F := Ideal) x0 (ix4 n (⟨k, hk9⟩ : Fin 9) yy xx)
          * shY iy (shX ix (fun yy xx => x1 (ix4 n (0 : Fin 1) yy xx))) yy xx := by
    funext yy xx
    show weight (F := Ideal) x0 k hk (ix3 n yy xx) * shiftZ (F := Ideal) (cur3 x1) 0#32 b c (ix3 n yy xx) = _
    rw [weight_apply x0 k hk9 hk, shiftZ_apply _ b c iy ix hiy hix hb hc]
    have hcu : (fun (yy xx : Fin 256) => cur3 (F := Ideal) x1 (ix3 n yy xx)) = fun (yy xx : Fin 256) => x1 (ix4 n (0 : Fin 1) yy xx) :=
      funext fun yy => funext fun xx => cur3_apply x1 n yy xx
    rw [hcu]
  rw [hF]

theorem tap_lo (x0 : S64x8x256x256.Idx → EReal) (x1 : S64x1x256x256.Idx → EReal) (k : Nat) (hk4 : k < 4)
    (hk : S64x9x256x256.Slices ![0, k, 0, 0] S64x1x256x256) (b c b' c' : BitVec 32) (iy ix oy ox : Nat)
    (hiy : iy ≤ 2) (hix : ix ≤ 2) (hoy : oy ≤ 2) (hox : ox ≤ 2)
    (hb : b.toInt = (iy : Int)) (hc : c.toInt = (ix : Int)) (hb' : b'.toInt = (oy : Int)) (hc' : c'.toInt = (ox : Int))
    (n : Fin 64) (y x : Fin 256) :
    tap (F := Ideal) x0 x1 k hk b c b' c' (ix3 n y x)
      = tapR (wR (fun k yy xx => x0 (ix4 n k yy xx)) ⟨k, by omega⟩) (fun yy xx => x1 (ix4 n (0 : Fin 1) yy xx)) iy ix oy ox y x := by
  rw [tap_apply x0 x1 k (by omega) hk b c b' c' iy ix oy ox hiy hix hoy hox hb hc hb' hc' n y x]
  have hw : (fun (yy xx : Fin 256) => newAff (F := Ideal) x0 (ix4 n (⟨k, by omega⟩ : Fin 9) yy xx))
      = wR (fun k yy xx => x0 (ix4 n k yy xx)) ⟨k, by omega⟩ := funext fun yy => funext fun xx => newAff_lo x0 n k hk4 yy xx
  rw [hw]

theorem tap_hi (x0 : S64x8x256x256.Idx → EReal) (x1 : S64x1x256x256.Idx → EReal) (k : Nat) (hk5 : 5 ≤ k) (hk9 : k < 9)
    (hk : S64x9x256x256.Slices ![0, k, 0, 0] S64x1x256x256) (b c b' c' : BitVec 32) (iy ix oy ox : Nat)
    (hiy : iy ≤ 2) (hix : ix ≤ 2) (hoy : oy ≤ 2) (hox : ox ≤ 2)
    (hb : b.toInt = (iy : Int)) (hc : c.toInt = (ix : Int)) (hb' : b'.toInt = (oy : Int)) (hc' : c'.toInt = (ox : Int))
    (n : Fin 64) (y x : Fin 256) :
    tap (F := Ideal) x0 x1 k hk b c b' c' (ix3 n y x)
      = tapR (wR (fun k yy xx => x0 (ix4 n k yy xx)) ⟨k - 1, by omega⟩) (fun yy xx => x1 (ix4 n (0 : Fin 1) yy xx)) iy ix oy ox y x := by
  rw [tap_apply x0 x1 k hk9 hk b c b' c' iy ix oy ox hiy hix hoy hox hb hc hb' hc' n y x]
  have hw : (fun (yy xx : Fin 256) => newAff (F := Ideal) x0 (ix4 n (⟨k, hk9⟩ : Fin 9) yy xx))
      = wR (fun k yy xx => x0 (ix4 n k yy xx)) ⟨k - 1, by omega⟩ := funext fun yy => funext fun xx => newAff_hi x0 n k hk5 hk9 yy xx
  rw [hw]

/-- The centre's term: weight 4 times the coarse images, through the same padding and cut (which leaves it in place). -/
theorem centre_apply (x0 : S64x8x256x256.Idx → EReal) (x2 : S64x1x256x256.Idx → EReal) (n : Fin 64) (y x : Fin 256) :
    shiftZ (F := Ideal) (mulf (F := Ideal) (φ := .f32) (weight (F := Ideal) x0 4 slices_S64x9x256x256_S64x1x256x256_0_4_0_0) (cur3 (F := Ideal) x2)) 0#32 1#32 1#32 (ix3 n y x)
      = shY 1 (shX 1 (fun y x => (1 - rawR (fun k yy xx => x0 (ix4 n k yy xx)) y x) * x2 (ix4 n (0 : Fin 1) y x))) y x := by
  rw [shiftZ_apply _ 1#32 1#32 1 1 (by omega) (by omega) (by decide) (by decide)]
  have hF : (fun (yy xx : Fin 256) => (mulf (F := Ideal) (φ := .f32) (weight (F := Ideal) x0 4 slices_S64x9x256x256_S64x1x256x256_0_4_0_0) (cur3 (F := Ideal) x2)) (ix3 n yy xx))
      = fun (y x : Fin 256) => (1 - rawR (fun k yy xx => x0 (ix4 n k yy xx)) y x) * x2 (ix4 n (0 : Fin 1) y x) := by
    funext yy xx
    show weight (F := Ideal) x0 4 slices_S64x9x256x256_S64x1x256x256_0_4_0_0 (ix3 n yy xx) * cur3 (F := Ideal) x2 (ix3 n yy xx) = _
    rw [weight_apply x0 4 (by omega) slices_S64x9x256x256_S64x1x256x256_0_4_0_0, cur3_apply]
    exact congrArg (· * _) (newAff_mid x0 n yy xx)
  rw [hF]

/-- The reference's result as one term of the three arguments. -/
def refTerm (x0 : (⟨S64x8x256x256, .f32⟩ : BufTy).Contents (Elt F)) (x1 x2 : (⟨S64x1x256x256, .f32⟩ : BufTy).Contents (Elt F)) :
    (⟨S64x1x256x256, .f32⟩ : BufTy).Contents (Elt F) :=
  broadcastInDim S64x1x256x256 ![0, 2, 3] bcast_S64x256x256_S64x1x256x256_0_2_3
    (addf (addf (addf (addf (addf (addf (addf (addf (addf (broadcastInDim S64x256x256 ![] bcast_S_S64x256x256 (constant S_ .f32 0x00000000#32))
      (tap x0 x1 0 slices_S64x9x256x256_S64x1x256x256_0_0_0_0 0#32 0#32 2#32 2#32))
      (tap x0 x1 1 slices_S64x9x256x256_S64x1x256x256_0_1_0_0 0#32 1#32 2#32 1#32))
      (tap x0 x1 2 slices_S64x9x256x256_S64x1x256x256_0_2_0_0 0#32 2#32 2#32 0#32))
      (tap x0 x1 3 slices_S64x9x256x256_S64x1x256x256_0_3_0_0 1#32 0#32 1#32 2#32))
      (shiftZ (mulf (weight x0 4 slices_S64x9x256x256_S64x1x256x256_0_4_0_0) (cur3 x2)) 0#32 1#32 1#32))
      (tap x0 x1 5 slices_S64x9x256x256_S64x1x256x256_0_5_0_0 1#32 2#32 1#32 0#32))
      (tap x0 x1 6 slices_S64x9x256x256_S64x1x256x256_0_6_0_0 2#32 0#32 0#32 2#32))
      (tap x0 x1 7 slices_S64x9x256x256_S64x1x256x256_0_7_0_0 2#32 1#32 0#32 1#32))
      (tap x0 x1 8 slices_S64x9x256x256_S64x1x256x256_0_8_0_0 2#32 2#32 0#32 0#32))

/-- Entry (n, 0, y, x) of the reference's result is the reference's arrangement of the propagation step on image n of
    each argument, at pixel (y, x). -/
theorem refTerm_apply (x0 : S64x8x256x256.Idx → EReal) (x1 x2 : S64x1x256x256.Idx → EReal) (n : Fin 64) (y x : Fin 256) :
    refTerm (F := Ideal) x0 x1 x2 (ix4 n (0 : Fin 1) y x)
      = Rpix (fun k yy xx => x0 (ix4 n k yy xx)) (fun yy xx => x1 (ix4 n (0 : Fin 1) yy xx)) (fun yy xx => x2 (ix4 n (0 : Fin 1) yy xx)) y x := by
  unfold refTerm
  rw [broadcastInDim_apply _ bcast_S64x256x256_S64x1x256x256_0_2_3 _ (ix4 n (0 : Fin 1) y x) (ix3 n y x) (fun a => match a with
    | ⟨0, _⟩ => by show n.val = if (64 : Nat) = 1 then 0 else n.val; rw [if_neg (by decide)]
    | ⟨1, _⟩ => by show y.val = if (256 : Nat) = 1 then 0 else y.val; rw [if_neg (by decide)]
    | ⟨2, _⟩ => by show x.val = if (256 : Nat) = 1 then 0 else x.val; rw [if_neg (by decide)])]
  have hZ : (broadcastInDim S64x256x256 ![] bcast_S_S64x256x256 (constant (F := Ideal) S_ .f32 0x00000000#32)) (ix3 n y x) = (0 : EReal) := by
    rw [broadcastInDim_apply _ bcast_S_S64x256x256 _ (ix3 n y x) ix0 (fun a => a.elim0)]
    exact Ideal.ofBits_zero_f32
  simp only [addf_apply]
  rw [hZ, centre_apply,
    tap_lo x0 x1 0 (by omega) slices_S64x9x256x256_S64x1x256x256_0_0_0_0 0#32 0#32 2#32 2#32 0 0 2 2 (by omega) (by omega) (by omega) (by omega) (by decide) (by decide) (by decide) (by decide) n y x,
    tap_lo x0 x1 1 (by omega) slices_S64x9x256x256_S64x1x256x256_0_1_0_0 0#32 1#32 2#32 1#32 0 1 2 1 (by omega) (by omega) (by omega) (by omega) (by decide) (by decide) (by decide) (by decide) n y x,
    tap_lo x0 x1 2 (by omega) slices_S64x9x256x256_S64x1x256x256_0_2_0_0 0#32 2#32 2#32 0#32 0 2 2 0 (by omega) (by omega) (by omega) (by omega) (by decide) (by decide) (by decide) (by decide) n y x,
    tap_lo x0 x1 3 (by omega) slices_S64x9x256x256_S64x1x256x256_0_3_0_0 1#32 0#32 1#32 2#32 1 0 1 2 (by omega) (by omega) (by omega) (by omega) (by decide) (by decide) (by decide) (by decide) n y x,
    tap_hi x0 x1 5 (by omega) (by omega) slices_S64x9x256x256_S64x1x256x256_0_5_0_0 1#32 2#32 1#32 0#32 1 2 1 0 (by omega) (by omega) (by omega) (by omega) (by decide) (by decide) (by decide) (by decide) n y x,
    tap_hi x0 x1 6 (by omega) (by omega) slices_S64x9x256x256_S64x1x256x256_0_6_0_0 2#32 0#32 0#32 2#32 2 0 0 2 (by omega) (by omega) (by omega) (by omega) (by decide) (by decide) (by decide) (by decide) n y x,
    tap_hi x0 x1 7 (by omega) (by omega) slices_S64x9x256x256_S64x1x256x256_0_7_0_0 2#32 1#32 0#32 1#32 2 1 0 1 (by omega) (by omega) (by omega) (by omega) (by decide) (by decide) (by decide) (by decide) n y x,
    tap_hi x0 x1 8 (by omega) (by omega) slices_S64x9x256x256_S64x1x256x256_0_8_0_0 2#32 2#32 0#32 0#32 2 2 0 0 (by omega) (by omega) (by omega) (by omega) (by decide) (by decide) (by decide) (by decide) n y x]
  rfl

end Cert.ReferenceIdeal.Term

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.RefRun.lean ====
/-
  The reference's line of host operations, read back one stretch at a time.

  The reference is a straight line of host operations: the nine weights, then nine times the same short stretch — pad
  the current images, cut them at an offset, multiply by one weight, pad the product, cut it back at the opposite
  offset, add it to the running sum — and one last change of shape. Every weakly fair execution of such a line ends with
  each buffer at the fold of the operations' results over the contents at launch. The fold over the whole line is
  the fold over its stretches one after the other, so it is read one stretch at a time: each stretch leaves its sum
  buffer at the previous sum plus its neighbour's term of the weights and the current images, and leaves the
  weights, the images and the three arguments as they were. Put together, the result buffer ends at the reference's term
  (RefTerm) of the three arguments, and the arguments end unchanged.
-/
import proofs.«129089_j25074019074065_2_alg».proof.Proof.Gen.ReferenceIdeal
import proofs.«129089_j25074019074065_2_alg».proof.Proof.RefTerm
import proofs.«129089_j25074019074065_2_alg».proof.Proof.RefOps
import proofs.«129089_j25074019074065_2_alg».proof.Proof.LibHostRead
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.HostRead Cert.ReferenceIdeal.ValueP

variable {F : FTy → Type} [FloatOps F]

/-! ## The line in stretches -/

set_option maxHeartbeats 2000000 in
/-- Operations 1 … 19 of the line. -/
def segA : List (HloOp τ sig (Elt F)) :=
  [ unary main_arg0 main_v0 (Host.absf : (⟨S64x8x256x256, .f32⟩ : BufTy).Contents (Elt F) → (⟨S64x8x256x256, .f32⟩ : BufTy).Contents (Elt F)),
    nullary main_cst (constant S_ .f32 0x00000000#32),
    binary main_v0 main_cst main_v1 ((fun x v => Host.reduceAdd x v reducesTo_S64x8x256x256_S64x256x256_d1 h_S_) : (⟨S64x8x256x256, .f32⟩ : BufTy).Contents (Elt F) → (⟨S_, .f32⟩ : BufTy).Contents (Elt F) → (⟨S64x256x256, .f32⟩ : BufTy).Contents (Elt F)),
    unary main_v1 main_v2 (broadcastInDim S64x1x256x256 ![0, 2, 3] bcast_S64x256x256_S64x1x256x256_0_2_3 : (⟨S64x256x256, .f32⟩ : BufTy).Contents (Elt F) → (⟨S64x1x256x256, .f32⟩ : BufTy).Contents (Elt F)),
    nullary main_cst_0 (constant S_ .f32 0x00000000#32),
    binary main_arg0 main_cst_0 main_v3 ((fun x v => Host.reduceAdd x v reducesTo_S64x8x256x256_S64x256x256_d1 h_S_) : (⟨S64x8x256x256, .f32⟩ : BufTy).Contents (Elt F) → (⟨S_, .f32⟩ : BufTy).Contents (Elt F) → (⟨S64x256x256, .f32⟩ : BufTy).Contents (Elt F)),
    unary main_v3 main_v4 (broadcastInDim S64x1x256x256 ![0, 2, 3] bcast_S64x256x256_S64x1x256x256_0_2_3 : (⟨S64x256x256, .f32⟩ : BufTy).Contents (Elt F) → (⟨S64x1x256x256, .f32⟩ : BufTy).Contents (Elt F)),
    unary main_v2 main_v5 (broadcastInDim S64x8x256x256 ![0, 1, 2, 3] bcast_S64x1x256x256_S64x8x256x256_0_1_2_3 : (⟨S64x1x256x256, .f32⟩ : BufTy).Contents (Elt F) → (⟨S64x8x256x256, .f32⟩ : BufTy).Contents (Elt F)),
    binary main_arg0 main_v5 main_v6 (Host.divf : (⟨S64x8x256x256, .f32⟩ : BufTy).Contents (Elt F) → (⟨S64x8x256x256, .f32⟩ : BufTy).Contents (Elt F) → (⟨S64x8x256x256, .f32⟩ : BufTy).Contents (Elt F)),
    unary main_v6 main_v7 ((extractStridedSlice S64x4x256x256 ![0, 0, 0, 0] · slices_S64x8x256x256_S64x4x256x256_0_0_0_0) : (⟨S64x8x256x256, .f32⟩ : BufTy).Contents (Elt F) → (⟨S64x4x256x256, .f32⟩ : BufTy).Contents (Elt F)),
    nullary main_cst_1 (constant S_ .f32 0x3F800000#32),
    unary main_cst_1 main_v8 (broadcastInDim S64x1x256x256 ![] bcast_S_S64x1x256x256 : (⟨S_, .f32⟩ : BufTy).Contents (Elt F) → (⟨S64x1x256x256, .f32⟩ : BufTy).Contents (Elt F)),
    binary main_v8 main_v4 main_v9 (subf : (⟨S64x1x256x256, .f32⟩ : BufTy).Contents (Elt F) → (⟨S64x1x256x256, .f32⟩ : BufTy).Contents (Elt F) → (⟨S64x1x256x256, .f32⟩ : BufTy).Contents (Elt F)),
    unary main_v6 main_v10 ((extractStridedSlice S64x4x256x256 ![0, 4, 0, 0] · slices_S64x8x256x256_S64x4x256x256_0_4_0_0) : (⟨S64x8x256x256, .f32⟩ : BufTy).Contents (Elt F) → (⟨S64x4x256x256, .f32⟩ : BufTy).Contents (Elt F)),
    nary ![main_v7, main_v9, main_v10] main_v11 (fun u => concatenate S64x9x256x256 1 [⟨S64x4x256x256, u 0⟩, ⟨S64x1x256x256, u 1⟩, ⟨S64x4x256x256, u 2⟩] concatenates_S64x4x256x256_S64x1x256x256_S64x4x256x256_S64x9x256x256_d1),
    reshape main_arg1 main_v12 rfl shapeCasts_S64x1x256x256_S64x256x256,
    reshape main_arg2 main_v13 rfl shapeCasts_S64x1x256x256_S64x256x256,
    nullary main_cst_2 (constant S_ .f32 0x00000000#32),
    unary main_cst_2 main_v14 (broadcastInDim S64x256x256 ![] bcast_S_S64x256x256 : (⟨S_, .f32⟩ : BufTy).Contents (Elt F) → (⟨S64x256x256, .f32⟩ : BufTy).Contents (Elt F)) ]

set_option maxHeartbeats 2000000 in
/-- Operations 20 … 37 of the line. -/
def seg0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S64x256x256, .f32⟩) main_v12) (TRef.of (T := ⟨S_, .f32⟩) main_call0_v0) (TRef.of (T := ⟨S64x258x258, .f32⟩) main_v15) (fun x v => pad S64x258x258 ![0, 1, 1] ![0, 1, 1] ![0, 0, 0] x v pads_S64x256x256_S64x258x258_000_110_110 h_S_),
    nullary main_c_3 (constantI S_ 32 0#32),
    nullary main_c_4 (constantI S_ 32 0#32),
    nullary main_c_5 (constantI S_ 32 0#32),
    unaryIndexed main_v15 ![main_c_3, main_c_4, main_c_5] ⟨S_, .i32⟩ main_v16 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v17 ((extractStridedSlice S64x1x256x256 ![0, 0, 0, 0] · slices_S64x9x256x256_S64x1x256x256_0_0_0_0) : (⟨S64x9x256x256, .f32⟩ : BufTy).Contents (Elt F) → (⟨S64x1x256x256, .f32⟩ : BufTy).Contents (Elt F)),
    reshape main_v17 main_v18 rfl shapeCasts_S64x1x256x256_S64x256x256,
    binary main_v18 main_v16 main_v19 (mulf : (⟨S64x256x256, .f32⟩ : BufTy).Contents (Elt F) → (⟨S64x256x256, .f32⟩ : BufTy).Contents (Elt F) → (⟨S64x256x256, .f32⟩ : BufTy).Contents (Elt F)),
    nullary main_c_6 (constantI S_ 32 0#32),
    TRef.unary (TRef.of (T := ⟨S_, .i32⟩) main_c_6) (TRef.of (T := ⟨S_, .f32⟩) main_call1_v0) (sitofp .f32),
    TRef.binary (TRef.of (T := ⟨S64x256x256, .f32⟩) main_v19) (TRef.of (T := ⟨S_, .f32⟩) main_call1_v0) (TRef.of (T := ⟨S64x258x258, .f32⟩) main_v20) (fun x v => pad S64x258x258 ![0, 1, 1] ![0, 1, 1] ![0, 0, 0] x v pads_S64x256x256_S64x258x258_000_110_110 h_S_),
    nullary main_c_7 (constantI S_ 32 0#32),
    nullary main_c_8 (constantI S_ 32 2#32),
    nullary main_c_9 (constantI S_ 32 2#32),
    unaryIndexed main_v20 ![main_c_7, main_c_8, main_c_9] ⟨S_, .i32⟩ main_v21 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v14 main_v21 main_v22 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 38 … 55 of the line. -/
def seg1 : List (HloOp τ sig (Elt F)) :=
  [ nullary main_c_10 (constantI S_ 32 0#32),
    TRef.unary (TRef.of (T := ⟨S_, .i32⟩) main_c_10) (TRef.of (T := ⟨S_, .f32⟩) main_call2_v0) (sitofp .f32),
    TRef.binary (TRef.of (T := ⟨S64x256x256, .f32⟩) main_v12) (TRef.of (T := ⟨S_, .f32⟩) main_call2_v0) (TRef.of (T := ⟨S64x258x258, .f32⟩) main_v23) (fun x v => pad S64x258x258 ![0, 1, 1] ![0, 1, 1] ![0, 0, 0] x v pads_S64x256x256_S64x258x258_000_110_110 h_S_),
    nullary main_c_11 (constantI S_ 32 0#32),
    nullary main_c_12 (constantI S_ 32 0#32),
    nullary main_c_13 (constantI S_ 32 1#32),
    unaryIndexed main_v23 ![main_c_11, main_c_12, main_c_13] ⟨S_, .i32⟩ main_v24 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v25 ((extractStridedSlice S64x1x256x256 ![0, 1, 0, 0] · slices_S64x9x256x256_S64x1x256x256_0_1_0_0) : (⟨S64x9x256x256, .f32⟩ : BufTy).Contents (Elt F) → (⟨S64x1x256x256, .f32⟩ : BufTy).Contents (Elt F)),
    reshape main_v25 main_v26 rfl shapeCasts_S64x1x256x256_S64x256x256,
    binary main_v26 main_v24 main_v27 (mulf : (⟨S64x256x256, .f32⟩ : BufTy).Contents (Elt F) → (⟨S64x256x256, .f32⟩ : BufTy).Contents (Elt F) → (⟨S64x256x256, .f32⟩ : BufTy).Contents (Elt F)),
    nullary main_c_14 (constantI S_ 32 0#32),
    TRef.unary (TRef.of (T := ⟨S_, .i32⟩) main_c_14) (TRef.of (T := ⟨S_, .f32⟩) main_call3_v0) (sitofp .f32),
    TRef.binary (TRef.of (T := ⟨S64x256x256, .f32⟩) main_v27) (TRef.of (T := ⟨S_, .f32⟩) main_call3_v0) (TRef.of (T := ⟨S64x258x258, .f32⟩) main_v28) (fun x v => pad S64x258x258 ![0, 1, 1] ![0, 1, 1] ![0, 0, 0] x v pads_S64x256x256_S64x258x258_000_110_110 h_S_),
    nullary main_c_15 (constantI S_ 32 0#32),
    nullary main_c_16 (constantI S_ 32 2#32),
    nullary main_c_17 (constantI S_ 32 1#32),
    unaryIndexed main_v28 ![main_c_15, main_c_16, main_c_17] ⟨S_, .i32⟩ main_v29 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v22 main_v29 main_v30 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 56 … 73 of the line. -/
def seg2 : List (HloOp τ sig (Elt F)) :=
  [ nullary main_c_18 (constantI S_ 32 0#32),
    TRef.unary (TRef.of (T := ⟨S_, .i32⟩) main_c_18) (TRef.of (T := ⟨S_, .f32⟩) main_call4_v0) (sitofp .f32),
    TRef.binary (TRef.of (T := ⟨S64x256x256, .f32⟩) main_v12) (TRef.of (T := ⟨S_, .f32⟩) main_call4_v0) (TRef.of (T := ⟨S64x258x258, .f32⟩) main_v31) (fun x v => pad S64x258x258 ![0, 1, 1] ![0, 1, 1] ![0, 0, 0] x v pads_S64x256x256_S64x258x258_000_110_110 h_S_),
    nullary main_c_19 (constantI S_ 32 0#32),
    nullary main_c_20 (constantI S_ 32 0#32),
    nullary main_c_21 (constantI S_ 32 2#32),
    unaryIndexed main_v31 ![main_c_19, main_c_20, main_c_21] ⟨S_, .i32⟩ main_v32 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v33 ((extractStridedSlice S64x1x256x256 ![0, 2, 0, 0] · slices_S64x9x256x256_S64x1x256x256_0_2_0_0) : (⟨S64x9x256x256, .f32⟩ : BufTy).Contents (Elt F) → (⟨S64x1x256x256, .f32⟩ : BufTy).Contents (Elt F)),
    reshape main_v33 main_v34 rfl shapeCasts_S64x1x256x256_S64x256x256,
    binary main_v34 main_v32 main_v35 (mulf : (⟨S64x256x256, .f32⟩ : BufTy).Contents (Elt F) → (⟨S64x256x256, .f32⟩ : BufTy).Contents (Elt F) → (⟨S64x256x256, .f32⟩ : BufTy).Contents (Elt F)),
    nullary main_c_22 (constantI S_ 32 0#32),
    TRef.unary (TRef.of (T := ⟨S_, .i32⟩) main_c_22) (TRef.of (T := ⟨S_, .f32⟩) main_call5_v0) (sitofp .f32),
    TRef.binary (TRef.of (T := ⟨S64x256x256, .f32⟩) main_v35) (TRef.of (T := ⟨S_, .f32⟩) main_call5_v0) (TRef.of (T := ⟨S64x258x258, .f32⟩) main_v36) (fun x v => pad S64x258x258 ![0, 1, 1] ![0, 1, 1] ![0, 0, 0] x v pads_S64x256x256_S64x258x258_000_110_110 h_S_),
    nullary main_c_23 (constantI S_ 32 0#32),
    nullary main_c_24 (constantI S_ 32 2#32),
    nullary main_c_25 (constantI S_ 32 0#32),
    unaryIndexed main_v36 ![main_c_23, main_c_24, main_c_25] ⟨S_, .i32⟩ main_v37 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v30 main_v37 main_v38 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 74 … 91 of the line. -/
def seg3 : List (HloOp τ sig (Elt F)) :=
  [ nullary main_c_26 (constantI S_ 32 0#32),
    TRef.unary (TRef.of (T := ⟨S_, .i32⟩) main_c_26) (TRef.of (T := ⟨S_, .f32⟩) main_call6_v0) (sitofp .f32),
    TRef.binary (TRef.of (T := ⟨S64x256x256, .f32⟩) main_v12) (TRef.of (T := ⟨S_, .f32⟩) main_call6_v0) (TRef.of (T := ⟨S64x258x258, .f32⟩) main_v39) (fun x v => pad S64x258x258 ![0, 1, 1] ![0, 1, 1] ![0, 0, 0] x v pads_S64x256x256_S64x258x258_000_110_110 h_S_),
    nullary main_c_27 (constantI S_ 32 0#32),
    nullary main_c_28 (constantI S_ 32 1#32),
    nullary main_c_29 (constantI S_ 32 0#32),
    unaryIndexed main_v39 ![main_c_27, main_c_28, main_c_29] ⟨S_, .i32⟩ main_v40 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v41 ((extractStridedSlice S64x1x256x256 ![0, 3, 0, 0] · slices_S64x9x256x256_S64x1x256x256_0_3_0_0) : (⟨S64x9x256x256, .f32⟩ : BufTy).Contents (Elt F) → (⟨S64x1x256x256, .f32⟩ : BufTy).Contents (Elt F)),
    reshape main_v41 main_v42 rfl shapeCasts_S64x1x256x256_S64x256x256,
    binary main_v42 main_v40 main_v43 (mulf : (⟨S64x256x256, .f32⟩ : BufTy).Contents (Elt F) → (⟨S64x256x256, .f32⟩ : BufTy).Contents (Elt F) → (⟨S64x256x256, .f32⟩ : BufTy).Contents (Elt F)),
    nullary main_c_30 (constantI S_ 32 0#32),
    TRef.unary (TRef.of (T := ⟨S_, .i32⟩) main_c_30) (TRef.of (T := ⟨S_, .f32⟩) main_call7_v0) (sitofp .f32),
    TRef.binary (TRef.of (T := ⟨S64x256x256, .f32⟩) main_v43) (TRef.of (T := ⟨S_, .f32⟩) main_call7_v0) (TRef.of (T := ⟨S64x258x258, .f32⟩) main_v44) (fun x v => pad S64x258x258 ![0, 1, 1] ![0, 1, 1] ![0, 0, 0] x v pads_S64x256x256_S64x258x258_000_110_110 h_S_),
    nullary main_c_31 (constantI S_ 32 0#32),
    nullary main_c_32 (constantI S_ 32 1#32),
    nullary main_c_33 (constantI S_ 32 2#32),
    unaryIndexed main_v44 ![main_c_31, main_c_32, main_c_33] ⟨S_, .i32⟩ main_v45 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v38 main_v45 main_v46 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 92 … 102 of the line. -/
def seg4 : List (HloOp τ sig (Elt F)) :=
  [ unary main_v11 main_v47 ((extractStridedSlice S64x1x256x256 ![0, 4, 0, 0] · slices_S64x9x256x256_S64x1x256x256_0_4_0_0) : (⟨S64x9x256x256, .f32⟩ : BufTy).Contents (Elt F) → (⟨S64x1x256x256, .f32⟩ : BufTy).Contents (Elt F)),
    reshape main_v47 main_v48 rfl shapeCasts_S64x1x256x256_S64x256x256,
    binary main_v48 main_v13 main_v49 (mulf : (⟨S64x256x256, .f32⟩ : BufTy).Contents (Elt F) → (⟨S64x256x256, .f32⟩ : BufTy).Contents (Elt F) → (⟨S64x256x256, .f32⟩ : BufTy).Contents (Elt F)),
    nullary main_c_34 (constantI S_ 32 0#32),
    TRef.unary (TRef.of (T := ⟨S_, .i32⟩) main_c_34) (TRef.of (T := ⟨S_, .f32⟩) main_call8_v0) (sitofp .f32),
    TRef.binary (TRef.of (T := ⟨S64x256x256, .f32⟩) main_v49) (TRef.of (T := ⟨S_, .f32⟩) main_call8_v0) (TRef.of (T := ⟨S64x258x258, .f32⟩) main_v50) (fun x v => pad S64x258x258 ![0, 1, 1] ![0, 1, 1] ![0, 0, 0] x v pads_S64x256x256_S64x258x258_000_110_110 h_S_),
    nullary main_c_35 (constantI S_ 32 0#32),
    nullary main_c_36 (constantI S_ 32 1#32),
    nullary main_c_37 (constantI S_ 32 1#32),
    unaryIndexed main_v50 ![main_c_35, main_c_36, main_c_37] ⟨S_, .i32⟩ main_v51 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v46 main_v51 main_v52 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 103 … 120 of the line. -/
def seg5 : List (HloOp τ sig (Elt F)) :=
  [ nullary main_c_38 (constantI S_ 32 0#32),
    TRef.unary (TRef.of (T := ⟨S_, .i32⟩) main_c_38) (TRef.of (T := ⟨S_, .f32⟩) main_call9_v0) (sitofp .f32),
    TRef.binary (TRef.of (T := ⟨S64x256x256, .f32⟩) main_v12) (TRef.of (T := ⟨S_, .f32⟩) main_call9_v0) (TRef.of (T := ⟨S64x258x258, .f32⟩) main_v53) (fun x v => pad S64x258x258 ![0, 1, 1] ![0, 1, 1] ![0, 0, 0] x v pads_S64x256x256_S64x258x258_000_110_110 h_S_),
    nullary main_c_39 (constantI S_ 32 0#32),
    nullary main_c_40 (constantI S_ 32 1#32),
    nullary main_c_41 (constantI S_ 32 2#32),
    unaryIndexed main_v53 ![main_c_39, main_c_40, main_c_41] ⟨S_, .i32⟩ main_v54 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v55 ((extractStridedSlice S64x1x256x256 ![0, 5, 0, 0] · slices_S64x9x256x256_S64x1x256x256_0_5_0_0) : (⟨S64x9x256x256, .f32⟩ : BufTy).Contents (Elt F) → (⟨S64x1x256x256, .f32⟩ : BufTy).Contents (Elt F)),
    reshape main_v55 main_v56 rfl shapeCasts_S64x1x256x256_S64x256x256,
    binary main_v56 main_v54 main_v57 (mulf : (⟨S64x256x256, .f32⟩ : BufTy).Contents (Elt F) → (⟨S64x256x256, .f32⟩ : BufTy).Contents (Elt F) → (⟨S64x256x256, .f32⟩ : BufTy).Contents (Elt F)),
    nullary main_c_42 (constantI S_ 32 0#32),
    TRef.unary (TRef.of (T := ⟨S_, .i32⟩) main_c_42) (TRef.of (T := ⟨S_, .f32⟩) main_call10_v0) (sitofp .f32),
    TRef.binary (TRef.of (T := ⟨S64x256x256, .f32⟩) main_v57) (TRef.of (T := ⟨S_, .f32⟩) main_call10_v0) (TRef.of (T := ⟨S64x258x258, .f32⟩) main_v58) (fun x v => pad S64x258x258 ![0, 1, 1] ![0, 1, 1] ![0, 0, 0] x v pads_S64x256x256_S64x258x258_000_110_110 h_S_),
    nullary main_c_43 (constantI S_ 32 0#32),
    nullary main_c_44 (constantI S_ 32 1#32),
    nullary main_c_45 (constantI S_ 32 0#32),
    unaryIndexed main_v58 ![main_c_43, main_c_44, main_c_45] ⟨S_, .i32⟩ main_v59 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v52 main_v59 main_v60 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 121 … 138 of the line. -/
def seg6 : List (HloOp τ sig (Elt F)) :=
  [ nullary main_c_46 (constantI S_ 32 0#32),
    TRef.unary (TRef.of (T := ⟨S_, .i32⟩) main_c_46) (TRef.of (T := ⟨S_, .f32⟩) main_call11_v0) (sitofp .f32),
    TRef.binary (TRef.of (T := ⟨S64x256x256, .f32⟩) main_v12) (TRef.of (T := ⟨S_, .f32⟩) main_call11_v0) (TRef.of (T := ⟨S64x258x258, .f32⟩) main_v61) (fun x v => pad S64x258x258 ![0, 1, 1] ![0, 1, 1] ![0, 0, 0] x v pads_S64x256x256_S64x258x258_000_110_110 h_S_),
    nullary main_c_47 (constantI S_ 32 0#32),
    nullary main_c_48 (constantI S_ 32 2#32),
    nullary main_c_49 (constantI S_ 32 0#32),
    unaryIndexed main_v61 ![main_c_47, main_c_48, main_c_49] ⟨S_, .i32⟩ main_v62 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v63 ((extractStridedSlice S64x1x256x256 ![0, 6, 0, 0] · slices_S64x9x256x256_S64x1x256x256_0_6_0_0) : (⟨S64x9x256x256, .f32⟩ : BufTy).Contents (Elt F) → (⟨S64x1x256x256, .f32⟩ : BufTy).Contents (Elt F)),
    reshape main_v63 main_v64 rfl shapeCasts_S64x1x256x256_S64x256x256,
    binary main_v64 main_v62 main_v65 (mulf : (⟨S64x256x256, .f32⟩ : BufTy).Contents (Elt F) → (⟨S64x256x256, .f32⟩ : BufTy).Contents (Elt F) → (⟨S64x256x256, .f32⟩ : BufTy).Contents (Elt F)),
    nullary main_c_50 (constantI S_ 32 0#32),
    TRef.unary (TRef.of (T := ⟨S_, .i32⟩) main_c_50) (TRef.of (T := ⟨S_, .f32⟩) main_call12_v0) (sitofp .f32),
    TRef.binary (TRef.of (T := ⟨S64x256x256, .f32⟩) main_v65) (TRef.of (T := ⟨S_, .f32⟩) main_call12_v0) (TRef.of (T := ⟨S64x258x258, .f32⟩) main_v66) (fun x v => pad S64x258x258 ![0, 1, 1] ![0, 1, 1] ![0, 0, 0] x v pads_S64x256x256_S64x258x258_000_110_110 h_S_),
    nullary main_c_51 (constantI S_ 32 0#32),
    nullary main_c_52 (constantI S_ 32 0#32),
    nullary main_c_53 (constantI S_ 32 2#32),
    unaryIndexed main_v66 ![main_c_51, main_c_52, main_c_53] ⟨S_, .i32⟩ main_v67 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v60 main_v67 main_v68 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 139 … 156 of the line. -/
def seg7 : List (HloOp τ sig (Elt F)) :=
  [ nullary main_c_54 (constantI S_ 32 0#32),
    TRef.unary (TRef.of (T := ⟨S_, .i32⟩) main_c_54) (TRef.of (T := ⟨S_, .f32⟩) main_call13_v0) (sitofp .f32),
    TRef.binary (TRef.of (T := ⟨S64x256x256, .f32⟩) main_v12) (TRef.of (T := ⟨S_, .f32⟩) main_call13_v0) (TRef.of (T := ⟨S64x258x258, .f32⟩) main_v69) (fun x v => pad S64x258x258 ![0, 1, 1] ![0, 1, 1] ![0, 0, 0] x v pads_S64x256x256_S64x258x258_000_110_110 h_S_),
    nullary main_c_55 (constantI S_ 32 0#32),
    nullary main_c_56 (constantI S_ 32 2#32),
    nullary main_c_57 (constantI S_ 32 1#32),
    unaryIndexed main_v69 ![main_c_55, main_c_56, main_c_57] ⟨S_, .i32⟩ main_v70 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v71 ((extractStridedSlice S64x1x256x256 ![0, 7, 0, 0] · slices_S64x9x256x256_S64x1x256x256_0_7_0_0) : (⟨S64x9x256x256, .f32⟩ : BufTy).Contents (Elt F) → (⟨S64x1x256x256, .f32⟩ : BufTy).Contents (Elt F)),
    reshape main_v71 main_v72 rfl shapeCasts_S64x1x256x256_S64x256x256,
    binary main_v72 main_v70 main_v73 (mulf : (⟨S64x256x256, .f32⟩ : BufTy).Contents (Elt F) → (⟨S64x256x256, .f32⟩ : BufTy).Contents (Elt F) → (⟨S64x256x256, .f32⟩ : BufTy).Contents (Elt F)),
    nullary main_c_58 (constantI S_ 32 0#32),
    TRef.unary (TRef.of (T := ⟨S_, .i32⟩) main_c_58) (TRef.of (T := ⟨S_, .f32⟩) main_call14_v0) (sitofp .f32),
    TRef.binary (TRef.of (T := ⟨S64x256x256, .f32⟩) main_v73) (TRef.of (T := ⟨S_, .f32⟩) main_call14_v0) (TRef.of (T := ⟨S64x258x258, .f32⟩) main_v74) (fun x v => pad S64x258x258 ![0, 1, 1] ![0, 1, 1] ![0, 0, 0] x v pads_S64x256x256_S64x258x258_000_110_110 h_S_),
    nullary main_c_59 (constantI S_ 32 0#32),
    nullary main_c_60 (constantI S_ 32 0#32),
    nullary main_c_61 (constantI S_ 32 1#32),
    unaryIndexed main_v74 ![main_c_59, main_c_60, main_c_61] ⟨S_, .i32⟩ main_v75 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v68 main_v75 main_v76 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 157 … 174 of the line. -/
def seg8 : List (HloOp τ sig (Elt F)) :=
  [ nullary main_c_62 (constantI S_ 32 0#32),
    TRef.unary (TRef.of (T := ⟨S_, .i32⟩) main_c_62) (TRef.of (T := ⟨S_, .f32⟩) main_call15_v0) (sitofp .f32),
    TRef.binary (TRef.of (T := ⟨S64x256x256, .f32⟩) main_v12) (TRef.of (T := ⟨S_, .f32⟩) main_call15_v0) (TRef.of (T := ⟨S64x258x258, .f32⟩) main_v77) (fun x v => pad S64x258x258 ![0, 1, 1] ![0, 1, 1] ![0, 0, 0] x v pads_S64x256x256_S64x258x258_000_110_110 h_S_),
    nullary main_c_63 (constantI S_ 32 0#32),
    nullary main_c_64 (constantI S_ 32 2#32),
    nullary main_c_65 (constantI S_ 32 2#32),
    unaryIndexed main_v77 ![main_c_63, main_c_64, main_c_65] ⟨S_, .i32⟩ main_v78 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    unary main_v11 main_v79 ((extractStridedSlice S64x1x256x256 ![0, 8, 0, 0] · slices_S64x9x256x256_S64x1x256x256_0_8_0_0) : (⟨S64x9x256x256, .f32⟩ : BufTy).Contents (Elt F) → (⟨S64x1x256x256, .f32⟩ : BufTy).Contents (Elt F)),
    reshape main_v79 main_v80 rfl shapeCasts_S64x1x256x256_S64x256x256,
    binary main_v80 main_v78 main_v81 (mulf : (⟨S64x256x256, .f32⟩ : BufTy).Contents (Elt F) → (⟨S64x256x256, .f32⟩ : BufTy).Contents (Elt F) → (⟨S64x256x256, .f32⟩ : BufTy).Contents (Elt F)),
    nullary main_c_66 (constantI S_ 32 0#32),
    TRef.unary (TRef.of (T := ⟨S_, .i32⟩) main_c_66) (TRef.of (T := ⟨S_, .f32⟩) main_call16_v0) (sitofp .f32),
    TRef.binary (TRef.of (T := ⟨S64x256x256, .f32⟩) main_v81) (TRef.of (T := ⟨S_, .f32⟩) main_call16_v0) (TRef.of (T := ⟨S64x258x258, .f32⟩) main_v82) (fun x v => pad S64x258x258 ![0, 1, 1] ![0, 1, 1] ![0, 0, 0] x v pads_S64x256x256_S64x258x258_000_110_110 h_S_),
    nullary main_c_67 (constantI S_ 32 0#32),
    nullary main_c_68 (constantI S_ 32 0#32),
    nullary main_c_69 (constantI S_ 32 0#32),
    unaryIndexed main_v82 ![main_c_67, main_c_68, main_c_69] ⟨S_, .i32⟩ main_v83 ((fun x i => Host.dynamicSlice S64x256x256 x (fun k => (i k (Shape.Idx.first h_S_)).toInt) sliceFits_S64x258x258_S64x256x256) : (⟨S64x258x258, .f32⟩ : BufTy).Contents (Elt F) → (Fin 3 → (⟨S_, .i32⟩ : BufTy).Contents (Elt F)) → (⟨S64x256x256, .f32⟩ : BufTy).Contents (Elt F)),
    binary main_v76 main_v83 main_v84 (addf : (⟨S64x256x256, .f32⟩ : BufTy).Contents (Elt F) → (⟨S64x256x256, .f32⟩ : BufTy).Contents (Elt F) → (⟨S64x256x256, .f32⟩ : BufTy).Contents (Elt F)) ]

set_option maxHeartbeats 2000000 in
/-- Operations 175 … 175 of the line. -/
def segZ : List (HloOp τ sig (Elt F)) :=
  [ unary main_v84 main_v85 (broadcastInDim S64x1x256x256 ![0, 2, 3] bcast_S64x256x256_S64x1x256x256_0_2_3 : (⟨S64x256x256, .f32⟩ : BufTy).Contents (Elt F) → (⟨S64x1x256x256, .f32⟩ : BufTy).Contents (Elt F)) ]

set_option maxRecDepth 8192 in
set_option maxHeartbeats 4000000 in
/-- The line is its stretches one after the other. -/
theorem ops_eq : (ops : List (HloOp τ sig (Elt F)))
    = segA ++ (seg0 ++ (seg1 ++ (seg2 ++ (seg3 ++ (seg4 ++ (seg5 ++ (seg6 ++ (seg7 ++ (seg8 ++ segZ))))))))) := rfl

/-- The fold over two stretches is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The term of one neighbour over the nine weights and the current images as buffers hold them. -/
def tapOf (w9 : (⟨S64x9x256x256, .f32⟩ : BufTy).Contents (Elt F)) (c3 : (⟨S64x256x256, .f32⟩ : BufTy).Contents (Elt F)) (k : Nat)
    (hk : S64x9x256x256.Slices ![0, k, 0, 0] S64x1x256x256) (b c b' c' : BitVec 32) : (⟨S64x256x256, .f32⟩ : BufTy).Contents (Elt F) :=
  Term.shiftZ (mulf (shapeCast S64x256x256 (extractStridedSlice S64x1x256x256 ![0, k, 0, 0] w9 hk) shapeCasts_S64x1x256x256_S64x256x256)
    (Term.shiftZ c3 0#32 b c)) 0#32 b' c'

/-! ## What each stretch leaves -/

set_option maxHeartbeats 4000000 in
theorem segA_v11 (V : Valuation τ sig (Elt F)) :
    after segA V (Proc.devRef .tc main_v11) = Term.newAff (V (Proc.devRef .tc main_arg0)) := by
  unfold segA Term.newAff Term.bsum Term.braw
  read_results <;> first | rfl | (congr <;> rfl)

set_option maxHeartbeats 4000000 in
theorem segA_v12 (V : Valuation τ sig (Elt F)) :
    after segA V (Proc.devRef .tc main_v12) = Term.cur3 (V (Proc.devRef .tc main_arg1)) := by
  unfold segA Term.cur3
  read_results <;> rfl

set_option maxHeartbeats 4000000 in
theorem segA_v13 (V : Valuation τ sig (Elt F)) :
    after segA V (Proc.devRef .tc main_v13) = Term.cur3 (V (Proc.devRef .tc main_arg2)) := by
  unfold segA Term.cur3
  read_results <;> rfl

set_option maxHeartbeats 4000000 in
theorem segA_v14 (V : Valuation τ sig (Elt F)) :
    after segA V (Proc.devRef .tc main_v14)
      = broadcastInDim S64x256x256 ![] bcast_S_S64x256x256 (constant S_ .f32 0x00000000#32) := by
  unfold segA
  read_results <;> rfl

set_option maxHeartbeats 4000000 in
theorem seg0_out (V : Valuation τ sig (Elt F)) : after seg0 V (Proc.devRef .tc main_v22)
    = addf (V (Proc.devRef .tc main_v14)) (tapOf (V (Proc.devRef .tc main_v11)) (V (Proc.devRef .tc main_v12)) 0 slices_S64x9x256x256_S64x1x256x256_0_0_0_0 0#32 0#32 2#32 2#32) := by
  unfold seg0 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg1_out (V : Valuation τ sig (Elt F)) : after seg1 V (Proc.devRef .tc main_v30)
    = addf (V (Proc.devRef .tc main_v22)) (tapOf (V (Proc.devRef .tc main_v11)) (V (Proc.devRef .tc main_v12)) 1 slices_S64x9x256x256_S64x1x256x256_0_1_0_0 0#32 1#32 2#32 1#32) := by
  unfold seg1 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg2_out (V : Valuation τ sig (Elt F)) : after seg2 V (Proc.devRef .tc main_v38)
    = addf (V (Proc.devRef .tc main_v30)) (tapOf (V (Proc.devRef .tc main_v11)) (V (Proc.devRef .tc main_v12)) 2 slices_S64x9x256x256_S64x1x256x256_0_2_0_0 0#32 2#32 2#32 0#32) := by
  unfold seg2 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg3_out (V : Valuation τ sig (Elt F)) : after seg3 V (Proc.devRef .tc main_v46)
    = addf (V (Proc.devRef .tc main_v38)) (tapOf (V (Proc.devRef .tc main_v11)) (V (Proc.devRef .tc main_v12)) 3 slices_S64x9x256x256_S64x1x256x256_0_3_0_0 1#32 0#32 1#32 2#32) := by
  unfold seg3 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg5_out (V : Valuation τ sig (Elt F)) : after seg5 V (Proc.devRef .tc main_v60)
    = addf (V (Proc.devRef .tc main_v52)) (tapOf (V (Proc.devRef .tc main_v11)) (V (Proc.devRef .tc main_v12)) 5 slices_S64x9x256x256_S64x1x256x256_0_5_0_0 1#32 2#32 1#32 0#32) := by
  unfold seg5 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg6_out (V : Valuation τ sig (Elt F)) : after seg6 V (Proc.devRef .tc main_v68)
    = addf (V (Proc.devRef .tc main_v60)) (tapOf (V (Proc.devRef .tc main_v11)) (V (Proc.devRef .tc main_v12)) 6 slices_S64x9x256x256_S64x1x256x256_0_6_0_0 2#32 0#32 0#32 2#32) := by
  unfold seg6 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg7_out (V : Valuation τ sig (Elt F)) : after seg7 V (Proc.devRef .tc main_v76)
    = addf (V (Proc.devRef .tc main_v68)) (tapOf (V (Proc.devRef .tc main_v11)) (V (Proc.devRef .tc main_v12)) 7 slices_S64x9x256x256_S64x1x256x256_0_7_0_0 2#32 1#32 0#32 1#32) := by
  unfold seg7 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg8_out (V : Valuation τ sig (Elt F)) : after seg8 V (Proc.devRef .tc main_v84)
    = addf (V (Proc.devRef .tc main_v76)) (tapOf (V (Proc.devRef .tc main_v11)) (V (Proc.devRef .tc main_v12)) 8 slices_S64x9x256x256_S64x1x256x256_0_8_0_0 2#32 2#32 0#32 0#32) := by
  unfold seg8 tapOf Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem seg4_out (V : Valuation τ sig (Elt F)) : after seg4 V (Proc.devRef .tc main_v52)
    = addf (V (Proc.devRef .tc main_v46))
        (Term.shiftZ (mulf (shapeCast S64x256x256 (extractStridedSlice S64x1x256x256 ![0, 4, 0, 0] (V (Proc.devRef .tc main_v11)) slices_S64x9x256x256_S64x1x256x256_0_4_0_0) shapeCasts_S64x1x256x256_S64x256x256)
          (V (Proc.devRef .tc main_v13))) 0#32 1#32 1#32) := by
  unfold seg4 Term.shiftZ
  read_results
  congr
  all_goals first | rfl | (funext k; fin_cases k <;> (try simp only [Matrix.cons_val_zero', Matrix.cons_val_succ', Fin.zero_eta, Fin.mk_one, Matrix.cons_val_zero, Matrix.cons_val_one, Matrix.head_cons]) <;> (try after_results_simp) <;> rfl)

set_option maxHeartbeats 4000000 in
theorem segZ_out (V : Valuation τ sig (Elt F)) : after segZ V (Proc.devRef .tc main_v85)
    = broadcastInDim S64x1x256x256 ![0, 2, 3] bcast_S64x256x256_S64x1x256x256_0_2_3 (V (Proc.devRef .tc main_v84)) := by
  unfold segZ
  read_results <;> rfl

/-! ## What each stretch leaves alone -/

set_option maxHeartbeats 4000000 in
theorem segA_keep_arg0 (V : Valuation τ sig (Elt F)) : after segA V (Proc.devRef .tc main_arg0) = V (Proc.devRef .tc main_arg0) := by
  unfold segA
  after_results_simp

set_option maxHeartbeats 4000000 in
theorem segA_keep_arg1 (V : Valuation τ sig (Elt F)) : after segA V (Proc.devRef .tc main_arg1) = V (Proc.devRef .tc main_arg1) := by
  unfold segA
  after_results_simp

set_option maxHeartbeats 4000000 in
theorem segA_keep_arg2 (V : Valuation τ sig (Elt F)) : after segA V (Proc.devRef .tc main_arg2) = V (Proc.devRef .tc main_arg2) := by
  unfold segA
  after_results_simp

set_option maxHeartbeats 4000000 in
theorem seg0_keep_v11 (V : Valuation τ sig (Elt F)) : after seg0 V (Proc.devRef .tc main_v11) = V (Proc.devRef .tc main_v11) := by
  unfold seg0
  after_results_simp

set_option maxHeartbeats 4000000 in
theorem seg0_keep_v12 (V : Valuation τ sig (Elt F)) : after seg0 V (Proc.devRef .tc main_v12) = V (Proc.devRef .tc main_v12) := by
  unfold seg0
  after_results_simp

set_option maxHeartbeats 4000000 in
theorem seg0_keep_v13 (V : Valuation τ sig (Elt F)) : after seg0 V (Proc.devRef .tc main_v13) = V (Proc.devRef .tc main_v13) := by
  unfold seg0
  after_results_simp

set_option maxHeartbeats 4000000 in
theorem seg0_keep_arg0 (V : Valuation τ sig (Elt F)) : after seg0 V (Proc.devRef .tc main_arg0) = V (Proc.devRef .tc main_arg0) := by
  unfold seg0
  after_results_simp

set_option maxHeartbeats 4000000 in
theorem seg0_keep_arg1 (V : Valuation τ sig (Elt F)) : after seg0 V (Proc.devRef .tc main_arg1) = V (Proc.devRef .tc main_arg1) := by
  unfold seg0
  after_results_simp

set_option maxHeartbeats 4000000 in
theorem seg0_keep_arg2 (V : Valuation τ sig (Elt F)) : after seg0 V (Proc.devRef .tc main_arg2) = V (Proc.devRef .tc main_arg2) := by
  unfold seg0
  after_results_simp

set_option maxHeartbeats 4000000 in
theorem seg1_keep_v11 (V : Valuation τ sig (Elt F)) : after seg1 V (Proc.devRef .tc main_v11) = V (Proc.devRef .tc main_v11) := by
  unfold seg1
  after_results_simp

set_option maxHeartbeats 4000000 in
theorem seg1_keep_v12 (V : Valuation τ sig (Elt F)) : after seg1 V (Proc.devRef .tc main_v12) = V (Proc.devRef .tc main_v12) := by
  unfold seg1
  after_results_simp

set_option maxHeartbeats 4000000 in
theorem seg1_keep_v13 (V : Valuation τ sig (Elt F)) : after seg1 V (Proc.devRef .tc main_v13) = V (Proc.devRef .tc main_v13) := by
  unfold seg1
  after_results_simp

set_option maxHeartbeats 4000000 in
theorem seg1_keep_arg0 (V : Valuation τ sig (Elt F)) : after seg1 V (Proc.devRef .tc main_arg0) = V (Proc.devRef .tc main_arg0) := by
  unfold seg1
  after_results_simp

set_option maxHeartbeats 4000000 in
theorem seg1_keep_arg1 (V : Valuation τ sig (Elt F)) : after seg1 V (Proc.devRef .tc main_arg1) = V (Proc.devRef .tc main_arg1) := by
  unfold seg1
  after_results_simp

set_option maxHeartbeats 4000000 in
theorem seg1_keep_arg2 (V : Valuation τ sig (Elt F)) : after seg1 V (Proc.devRef .tc main_arg2) = V (Proc.devRef .tc main_arg2) := by
  unfold seg1
  after_results_simp

set_option maxHeartbeats 4000000 in
theorem seg2_keep_v11 (V : Valuation τ sig (Elt F)) : after seg2 V (Proc.devRef .tc main_v11) = V (Proc.devRef .tc main_v11) := by
  unfold seg2
  after_results_simp

set_option maxHeartbeats 4000000 in
theorem seg2_keep_v12 (V : Valuation τ sig (Elt F)) : after seg2 V (Proc.devRef .tc main_v12) = V (Proc.devRef .tc main_v12) := by
  unfold seg2
  after_results_simp

set_option maxHeartbeats 4000000 in
theorem seg2_keep_v13 (V : Valuation τ sig (Elt F)) : after seg2 V (Proc.devRef .tc main_v13) = V (Proc.devRef .tc main_v13) := by
  unfold seg2
  after_results_simp

set_option maxHeartbeats 4000000 in
theorem seg2_keep_arg0 (V : Valuation τ sig (Elt F)) : after seg2 V (Proc.devRef .tc main_arg0) = V (Proc.devRef .tc main_arg0) := by
  unfold seg2
  after_results_simp

set_option maxHeartbeats 4000000 in
theorem seg2_keep_arg1 (V : Valuation τ sig (Elt F)) : after seg2 V (Proc.devRef .tc main_arg1) = V (Proc.devRef .tc main_arg1) := by
  unfold seg2
  after_results_simp

set_option maxHeartbeats 4000000 in
theorem seg2_keep_arg2 (V : Valuation τ sig (Elt F)) : after seg2 V (Proc.devRef .tc main_arg2) = V (Proc.devRef .tc main_arg2) := by
  unfold seg2
  after_results_simp

set_option maxHeartbeats 4000000 in
theorem seg3_keep_v11 (V : Valuation τ sig (Elt F)) : after seg3 V (Proc.devRef .tc main_v11) = V (Proc.devRef .tc main_v11) := by
  unfold seg3
  after_results_simp

set_option maxHeartbeats 4000000 in
theorem seg3_keep_v12 (V : Valuation τ sig (Elt F)) : after seg3 V (Proc.devRef .tc main_v12) = V (Proc.devRef .tc main_v12) := by
  unfold seg3
  after_results_simp

set_option maxHeartbeats 4000000 in
theorem seg3_keep_v13 (V : Valuation τ sig (Elt F)) : after seg3 V (Proc.devRef .tc main_v13) = V (Proc.devRef .tc main_v13) := by
  unfold seg3
  after_results_simp

set_option maxHeartbeats 4000000 in
theorem seg3_keep_arg0 (V : Valuation τ sig (Elt F)) : after seg3 V (Proc.devRef .tc main_arg0) = V (Proc.devRef .tc main_arg0) := by
  unfold seg3
  after_results_simp

set_option maxHeartbeats 4000000 in
theorem seg3_keep_arg1 (V : Valuation τ sig (Elt F)) : after seg3 V (Proc.devRef .tc main_arg1) = V (Proc.devRef .tc main_arg1) := by
  unfold seg3
  after_results_simp

set_option maxHeartbeats 4000000 in
theorem seg3_keep_arg2 (V : Valuation τ sig (Elt F)) : after seg3 V (Proc.devRef .tc main_arg2) = V (Proc.devRef .tc main_arg2) := by
  unfold seg3
  after_results_simp

set_option maxHeartbeats 4000000 in
theorem seg4_keep_v11 (V : Valuation τ sig (Elt F)) : after seg4 V (Proc.devRef .tc main_v11) = V (Proc.devRef .tc main_v11) := by
  unfold seg4
  after_results_simp

set_option maxHeartbeats 4000000 in
theorem seg4_keep_v12 (V : Valuation τ sig (Elt F)) : after seg4 V (Proc.devRef .tc main_v12) = V (Proc.devRef .tc main_v12) := by
  unfold seg4
  after_results_simp

set_option maxHeartbeats 4000000 in
theorem seg4_keep_v13 (V : Valuation τ sig (Elt F)) : after seg4 V (Proc.devRef .tc main_v13) = V (Proc.devRef .tc main_v13) := by
  unfold seg4
  after_results_simp

set_option maxHeartbeats 4000000 in
theorem seg4_keep_arg0 (V : Valuation τ sig (Elt F)) : after seg4 V (Proc.devRef .tc main_arg0) = V (Proc.devRef .tc main_arg0) := by
  unfold seg4
  after_results_simp

set_option maxHeartbeats 4000000 in
theorem seg4_keep_arg1 (V : Valuation τ sig (Elt F)) : after seg4 V (Proc.devRef .tc main_arg1) = V (Proc.devRef .tc main_arg1) := by
  unfold seg4
  after_results_simp

set_option maxHeartbeats 4000000 in
theorem seg4_keep_arg2 (V : Valuation τ sig (Elt F)) : after seg4 V (Proc.devRef .tc main_arg2) = V (Proc.devRef .tc main_arg2) := by
  unfold seg4
  after_results_simp

set_option maxHeartbeats 4000000 in
theorem seg5_keep_v11 (V : Valuation τ sig (Elt F)) : after seg5 V (Proc.devRef .tc main_v11) = V (Proc.devRef .tc main_v11) := by
  unfold seg5
  after_results_simp

set_option maxHeartbeats 4000000 in
theorem seg5_keep_v12 (V : Valuation τ sig (Elt F)) : after seg5 V (Proc.devRef .tc main_v12) = V (Proc.devRef .tc main_v12) := by
  unfold seg5
  after_results_simp

set_option maxHeartbeats 4000000 in
theorem seg5_keep_v13 (V : Valuation τ sig (Elt F)) : after seg5 V (Proc.devRef .tc main_v13) = V (Proc.devRef .tc main_v13) := by
  unfold seg5
  after_results_simp

set_option maxHeartbeats 4000000 in
theorem seg5_keep_arg0 (V : Valuation τ sig (Elt F)) : after seg5 V (Proc.devRef .tc main_arg0) = V (Proc.devRef .tc main_arg0) := by
  unfold seg5
  after_results_simp

set_option maxHeartbeats 4000000 in
theorem seg5_keep_arg1 (V : Valuation τ sig (Elt F)) : after seg5 V (Proc.devRef .tc main_arg1) = V (Proc.devRef .tc main_arg1) := by
  unfold seg5
  after_results_simp

set_option maxHeartbeats 4000000 in
theorem seg5_keep_arg2 (V : Valuation τ sig (Elt F)) : after seg5 V (Proc.devRef .tc main_arg2) = V (Proc.devRef .tc main_arg2) := by
  unfold seg5
  after_results_simp

set_option maxHeartbeats 4000000 in
theorem seg6_keep_v11 (V : Valuation τ sig (Elt F)) : after seg6 V (Proc.devRef .tc main_v11) = V (Proc.devRef .tc main_v11) := by
  unfold seg6
  after_results_simp

set_option maxHeartbeats 4000000 in
theorem seg6_keep_v12 (V : Valuation τ sig (Elt F)) : after seg6 V (Proc.devRef .tc main_v12) = V (Proc.devRef .tc main_v12) := by
  unfold seg6
  after_results_simp

set_option maxHeartbeats 4000000 in
theorem seg6_keep_v13 (V : Valuation τ sig (Elt F)) : after seg6 V (Proc.devRef .tc main_v13) = V (Proc.devRef .tc main_v13) := by
  unfold seg6
  after_results_simp

set_option maxHeartbeats 4000000 in
theorem seg6_keep_arg0 (V : Valuation τ sig (Elt F)) : after seg6 V (Proc.devRef .tc main_arg0) = V (Proc.devRef .tc main_arg0) := by
  unfold seg6
  after_results_simp

set_option maxHeartbeats 4000000 in
theorem seg6_keep_arg1 (V : Valuation τ sig (Elt F)) : after seg6 V (Proc.devRef .tc main_arg1) = V (Proc.devRef .tc main_arg1) := by
  unfold seg6
  after_results_simp

set_option maxHeartbeats 4000000 in
theorem seg6_keep_arg2 (V : Valuation τ sig (Elt F)) : after seg6 V (Proc.devRef .tc main_arg2) = V (Proc.devRef .tc main_arg2) := by
  unfold seg6
  after_results_simp

set_option maxHeartbeats 4000000 in
theorem seg7_keep_v11 (V : Valuation τ sig (Elt F)) : after seg7 V (Proc.devRef .tc main_v11) = V (Proc.devRef .tc main_v11) := by
  unfold seg7
  after_results_simp

set_option maxHeartbeats 4000000 in
theorem seg7_keep_v12 (V : Valuation τ sig (Elt F)) : after seg7 V (Proc.devRef .tc main_v12) = V (Proc.devRef .tc main_v12) := by
  unfold seg7
  after_results_simp

set_option maxHeartbeats 4000000 in
theorem seg7_keep_v13 (V : Valuation τ sig (Elt F)) : after seg7 V (Proc.devRef .tc main_v13) = V (Proc.devRef .tc main_v13) := by
  unfold seg7
  after_results_simp

set_option maxHeartbeats 4000000 in
theorem seg7_keep_arg0 (V : Valuation τ sig (Elt F)) : after seg7 V (Proc.devRef .tc main_arg0) = V (Proc.devRef .tc main_arg0) := by
  unfold seg7
  after_results_simp

set_option maxHeartbeats 4000000 in
theorem seg7_keep_arg1 (V : Valuation τ sig (Elt F)) : after seg7 V (Proc.devRef .tc main_arg1) = V (Proc.devRef .tc main_arg1) := by
  unfold seg7
  after_results_simp

set_option maxHeartbeats 4000000 in
theorem seg7_keep_arg2 (V : Valuation τ sig (Elt F)) : after seg7 V (Proc.devRef .tc main_arg2) = V (Proc.devRef .tc main_arg2) := by
  unfold seg7
  after_results_simp

set_option maxHeartbeats 4000000 in
theorem seg8_keep_v11 (V : Valuation τ sig (Elt F)) : after seg8 V (Proc.devRef .tc main_v11) = V (Proc.devRef .tc main_v11) := by
  unfold seg8
  after_results_simp

set_option maxHeartbeats 4000000 in
theorem seg8_keep_v12 (V : Valuation τ sig (Elt F)) : after seg8 V (Proc.devRef .tc main_v12) = V (Proc.devRef .tc main_v12) := by
  unfold seg8
  after_results_simp

set_option maxHeartbeats 4000000 in
theorem seg8_keep_v13 (V : Valuation τ sig (Elt F)) : after seg8 V (Proc.devRef .tc main_v13) = V (Proc.devRef .tc main_v13) := by
  unfold seg8
  after_results_simp

set_option maxHeartbeats 4000000 in
theorem seg8_keep_arg0 (V : Valuation τ sig (Elt F)) : after seg8 V (Proc.devRef .tc main_arg0) = V (Proc.devRef .tc main_arg0) := by
  unfold seg8
  after_results_simp

set_option maxHeartbeats 4000000 in
theorem seg8_keep_arg1 (V : Valuation τ sig (Elt F)) : after seg8 V (Proc.devRef .tc main_arg1) = V (Proc.devRef .tc main_arg1) := by
  unfold seg8
  after_results_simp

set_option maxHeartbeats 4000000 in
theorem seg8_keep_arg2 (V : Valuation τ sig (Elt F)) : after seg8 V (Proc.devRef .tc main_arg2) = V (Proc.devRef .tc main_arg2) := by
  unfold seg8
  after_results_simp

set_option maxHeartbeats 4000000 in
theorem segZ_keep_arg0 (V : Valuation τ sig (Elt F)) : after segZ V (Proc.devRef .tc main_arg0) = V (Proc.devRef .tc main_arg0) := by
  unfold segZ
  after_results_simp

set_option maxHeartbeats 4000000 in
theorem segZ_keep_arg1 (V : Valuation τ sig (Elt F)) : after segZ V (Proc.devRef .tc main_arg1) = V (Proc.devRef .tc main_arg1) := by
  unfold segZ
  after_results_simp

set_option maxHeartbeats 4000000 in
theorem segZ_keep_arg2 (V : Valuation τ sig (Elt F)) : after segZ V (Proc.devRef .tc main_arg2) = V (Proc.devRef .tc main_arg2) := by
  unfold segZ
  after_results_simp

end Cert.ReferenceIdeal.HandRun

end
-- ==== Proof.RefWhole.lean ====
/-
  The reference's run: the whole line of host operations, read back.

  The fold of the operations' results over the whole line is the fold over its stretches one after the other. Reading
  the stretches from the last back to the first — each leaves its sum buffer at the previous sum plus its neighbour's
  term, and leaves the weights, the images and the arguments alone — the result buffer ends at the reference's term
  (RefTerm) of the three arguments as launched, and the arguments end unchanged. Every weakly fair execution of a
  straight line of host operations ends in that fold.
-/
import proofs.«129089_j25074019074065_2_alg».proof.Proof.Gen.ReferenceIdeal
import proofs.«129089_j25074019074065_2_alg».proof.Proof.RefTerm
import proofs.«129089_j25074019074065_2_alg».proof.Proof.RefOps
import proofs.«129089_j25074019074065_2_alg».proof.Proof.RefRun
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxHeartbeats 8000000 in
/-- After the whole line the result buffer holds the reference's term of the three arguments as launched. -/
theorem result_eq (V : Valuation τ sig (Elt F)) : after ops V (Proc.devRef .tc main_v85)
    = Term.refTerm (V (Proc.devRef .tc main_arg0)) (V (Proc.devRef .tc main_arg1)) (V (Proc.devRef .tc main_arg2)) := by
  rw [ops_eq]
  simp only [after_append]
  rw [segZ_out, seg8_out, seg7_out, seg7_keep_v11, seg7_keep_v12, seg6_out, seg6_keep_v11, seg6_keep_v12, seg5_out, seg5_keep_v11, seg5_keep_v12, seg4_out, seg4_keep_v11, seg4_keep_v12, seg3_out, seg3_keep_v11, seg3_keep_v12, seg3_keep_v13, seg2_out, seg2_keep_v11, seg2_keep_v12, seg2_keep_v13, seg1_out, seg1_keep_v11, seg1_keep_v12, seg1_keep_v13, seg0_out, seg0_keep_v11, seg0_keep_v12, seg0_keep_v13, segA_v14, segA_v11, segA_v12, segA_v13]
  rfl

set_option maxHeartbeats 4000000 in
/-- The whole line leaves argument 0 as launched. -/
theorem kept_arg0 (V : Valuation τ sig (Elt F)) : after ops V (Proc.devRef .tc main_arg0) = V (Proc.devRef .tc main_arg0) := by
  rw [ops_eq]
  simp only [after_append]
  rw [segZ_keep_arg0, seg8_keep_arg0, seg7_keep_arg0, seg6_keep_arg0, seg5_keep_arg0, seg4_keep_arg0, seg3_keep_arg0, seg2_keep_arg0, seg1_keep_arg0, seg0_keep_arg0, segA_keep_arg0]

set_option maxHeartbeats 4000000 in
/-- The whole line leaves argument 1 as launched. -/
theorem kept_arg1 (V : Valuation τ sig (Elt F)) : after ops V (Proc.devRef .tc main_arg1) = V (Proc.devRef .tc main_arg1) := by
  rw [ops_eq]
  simp only [after_append]
  rw [segZ_keep_arg1, seg8_keep_arg1, seg7_keep_arg1, seg6_keep_arg1, seg5_keep_arg1, seg4_keep_arg1, seg3_keep_arg1, seg2_keep_arg1, seg1_keep_arg1, seg0_keep_arg1, segA_keep_arg1]

set_option maxHeartbeats 4000000 in
/-- The whole line leaves argument 2 as launched. -/
theorem kept_arg2 (V : Valuation τ sig (Elt F)) : after ops V (Proc.devRef .tc main_arg2) = V (Proc.devRef .tc main_arg2) := by
  rw [ops_eq]
  simp only [after_append]
  rw [segZ_keep_arg2, seg8_keep_arg2, seg7_keep_arg2, seg6_keep_arg2, seg5_keep_arg2, seg4_keep_arg2, seg3_keep_arg2, seg2_keep_arg2, seg1_keep_arg2, seg0_keep_arg2, segA_keep_arg2]

/-- On every device, for any float values, from any memory with zero counters: every weakly fair execution of the
    reference terminates with its result at the reference's term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = Term.refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v85).trans (result_eq (launchContents m c)),
      (h c main_arg0).trans (kept_arg0 (launchContents m c)),
      (h c main_arg1).trans (kept_arg1 (launchContents m c)),
      (h c main_arg2).trans (kept_arg2 (launchContents m c))⟩)
    (run_seq scopedRefs_eq scopedSems_eq defs main (fun _ => ops) main_eq (fun _ => ops_sub) m ρ)

end Cert.ReferenceIdeal.HandRun

end
-- ==== Proof.PreDecode.lean ====
/-
  What the precondition says, as facts about the entries.

  The precondition is a conjunction of four tests over whole arrays: |v| < +∞ for every entry v of each of the three
  arguments, and Σ_k |affinity| > 0 at every pixel. On the extended reals the first three say that every entry is a real
  number, and the fourth that the sum of the absolute values of the eight neighbour weights is positive at every pixel.
-/
import proofs.«129089_j25074019074065_2_alg».proof.Pre_finite_inputs
import proofs.«129089_j25074019074065_2_alg».proof.Proof.Gen.Pre_finite_inputs
import proofs.«129089_j25074019074065_2_alg».proof.Proof.PixelLaw
import Idealize.ShloMosaic.PureOps.Ideal.Laws
import Idealize.ShloMosaic.Lib.ValueIdx
import Idealize.ShloMosaic.Lib.ReduceAll
import Idealize.ShloMosaic.Lib.Affine

noncomputable section

namespace Cert.Pre_finite_inputs.Decode

open Cert.Pre_finite_inputs Cert.Cspn Idealize.ShloMosaic Idealize.ShloMosaic.ValueIdx

instance : Subsingleton S_.Idx := ⟨fun a b => funext fun d => d.elim0⟩

/-- The f32 word of +∞ is the top of the extended reals. -/
theorem inf_word : Ideal.ofBits .f32 0x7F800000#32 = (⊤ : EReal) := by simp [Ideal.ofBits, Ideal.ieee]

/-- An extended real whose absolute value is below +∞ is a real. -/
theorem real_of_abs_lt (v : EReal) (h : Ideal.cmp .olt (max v (-v)) (Ideal.ofBits .f32 0x7F800000#32) = 1#1) : ∃ r : ℝ, v = r := by
  rw [inf_word] at h
  have h' : max v (-v) < ⊤ := by
    by_contra hn
    simp [Ideal.cmp, hn] at h
  induction v using EReal.rec with
  | bot => simp at h'
  | coe r => exact ⟨r, rfl⟩
  | top => simp at h'

/-- What the precondition says of the three arguments: every entry is a real number, and at every pixel the absolute
    values of the eight neighbour weights have a positive sum. -/
theorem decode (a0 : S64x8x256x256.Idx → EReal) (a1 a2 : S64x1x256x256.Idx → EReal)
    (h : fn (F := Ideal) a0 a1 a2 = fun _ => 1#1) :
    (∀ i, ∃ r : ℝ, a0 i = r) ∧ (∀ i, ∃ r : ℝ, a1 i = r) ∧ (∀ i, ∃ r : ℝ, a2 i = r)
      ∧ ∀ (n : Fin 64) (y x : Fin 256), 0 < sumAbs (fun k yy xx => a0 (ix4 n k yy xx)) y x := by
  have h0 := congrFun h ix0
  dsimp only [fn, fn_part1] at h0
  obtain ⟨h13, h18⟩ := IntOp.andi_eq_one.mp h0
  obtain ⟨h8, h12⟩ := IntOp.andi_eq_one.mp h13
  obtain ⟨h3, h7⟩ := IntOp.andi_eq_one.mp h8
  refine ⟨fun i => ?_, fun i => ?_, fun i => ?_, fun n y x => ?_⟩
  · have e := Host.reduce_andi_all _ _ _ _ _ h3 i
    exact real_of_abs_lt (a0 i) e
  · have e := Host.reduce_andi_all _ _ _ _ _ h7 i
    exact real_of_abs_lt (a1 i) e
  · have e := Host.reduce_andi_all _ _ _ _ _ h12 i
    exact real_of_abs_lt (a2 i) e
  · have e := Host.reduce_andi_all _ _ _ _ _ h18 (ix3 n y x)
    have e' : Ideal.cmp .ogt ((Host.reduceAdd (F := Ideal) (Host.absf a0) (constant S_ .f32 0x00000000#32)
        Facts.reducesTo_S64x8x256x256_S64x256x256_d1 Facts.h_S_) (ix3 n y x)) (Ideal.ofBits .f32 0x00000000#32) = 1#1 := e
    rw [Ideal.ofBits_zero_f32] at e'
    have hs : (Host.reduceAdd (F := Ideal) (Host.absf a0) (constant S_ .f32 0x00000000#32)
        Facts.reducesTo_S64x8x256x256_S64x256x256_d1 Facts.h_S_) (ix3 n y x) = sumAbs (fun k yy xx => a0 (ix4 n k yy xx)) y x := by
      simp only [Host.reduceAdd, Ideal.hostReduceAdd_def]
      rw [Ideal.hostReduceAdd_single Facts.reducesTo_S64x8x256x256_S64x256x256_d1 (by decide)]
      unfold sumAbs
      refine congrArg₂ (· + ·) Ideal.ofBits_zero_f32 (Finset.sum_congr rfl fun k _ => ?_)
      have ek : ∀ (hh : S64x8x256x256.Reduces [1] S64x256x256), hh.lift (ix3 n y x) k = ix4 n ⟨k.val, k.isLt⟩ y x := fun hh =>
        funext fun a => Fin.ext (by match a with | ⟨0, _⟩ => rfl | ⟨1, _⟩ => rfl | ⟨2, _⟩ => rfl | ⟨3, _⟩ => rfl)
      show max (a0 _) (-(a0 _)) = _
      rw [ek]
      rfl
    rw [hs] at e'
    by_contra hn
    simp [Ideal.cmp, hn] at e'

end Cert.Pre_finite_inputs.Decode

end
-- ==== Proof.lean ====
/-
  One step of a spatial propagation network over 64 images of 256 by 256 pixels: the kernel against its reference.

  Each pixel carries eight neighbour weights. With s the sum of their absolute values and raw their sum, the new value of
  a pixel is (1 − raw) times the coarse image there, plus, for each of the eight neighbours of the 3 × 3 window, the
  weight over s taken AT THE NEIGHBOUR times the current image at the pixel itself (nothing from outside the image).

  The reference gets there by unfolding: for each neighbour it multiplies the normalised weight by the current image
  moved one way and moves the product back the other way; the two moves cancel (PixelLaw, `shift_mul_shift`). The kernel
  moves the weights only — each row group's columns first, then the group's rows once —, adds the eight moved weights
  and multiplies the total by the current image once; it also divides 1 by s once and multiplies, where the reference
  divides each weight by s. Where every entry is a real number and s is positive the two agree (PixelLaw,
  `Kpix_eq_Rpix`): a / s = a · (1 / s), and the current image distributes over the sum of the moved weights. The
  precondition gives exactly that (PreDecode): every input finite and s > 0 at every pixel — where s = 0 the reference
  divides 0 by 0.

  The kernel's result array is one function of the argument arrays (KernelBlock: one block of four images; KernelArray:
  the sixteen blocks cover the array); the reference's result is its term of the arguments (RefRun, RefWhole), read pixel by
  pixel (RefTerm). Both are the same function of the arguments.
-/
import proofs.«129089_j25074019074065_2_alg».proof.Defs
import proofs.«129089_j25074019074065_2_alg».proof.Proof.Gen.Kernel
import proofs.«129089_j25074019074065_2_alg».proof.Proof.Gen.Kernel.Skeleton
import proofs.«129089_j25074019074065_2_alg».proof.Proof.Gen.Kernel.Launch
import proofs.«129089_j25074019074065_2_alg».proof.Proof.Gen.Kernel.Points
import proofs.«129089_j25074019074065_2_alg».proof.Proof.Gen.Kernel.Frame
import proofs.«129089_j25074019074065_2_alg».proof.Proof.Gen.KernelIdeal
import proofs.«129089_j25074019074065_2_alg».proof.Proof.Gen.KernelIdeal.Skeleton
import proofs.«129089_j25074019074065_2_alg».proof.Proof.Gen.KernelIdeal.Launch
import proofs.«129089_j25074019074065_2_alg».proof.Proof.Gen.KernelIdeal.Points
import proofs.«129089_j25074019074065_2_alg».proof.Proof.Gen.KernelIdeal.Frame
import proofs.«129089_j25074019074065_2_alg».proof.Proof.Gen.ReferenceIdeal
import proofs.«129089_j25074019074065_2_alg».proof.Proof.Gen.Pre_finite_inputs
import proofs.«129089_j25074019074065_2_alg».proof.Proof.Gen.KernelIdeal.Value
import proofs.«129089_j25074019074065_2_alg».proof.Proof.PixelLaw
import proofs.«129089_j25074019074065_2_alg».proof.Proof.KernelArray
import proofs.«129089_j25074019074065_2_alg».proof.Proof.RefTerm
import proofs.«129089_j25074019074065_2_alg».proof.Proof.RefWhole
import proofs.«129089_j25074019074065_2_alg».proof.Proof.PreDecode
import Idealize.ShloMosaic.Adequacy
import Idealize.ShloMosaic.Init

noncomputable section

namespace Cert.Proof

open Idealize.ShloMosaic Idealize.ShloMosaic.ValueIdx Idealize.SL.Sem Cert.Cspn

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Under the precondition the reference's term of the arguments is the kernel's function of them: entry (n, 0, y, x) of
    either is the propagation step on image n of the arguments at pixel (y, x), in the reference's arrangement and in the
    kernel's, which agree where every entry is real and every sum of absolute values positive. -/
theorem ref_eq_kernel (a0 : Cert.KernelIdeal.S64x8x256x256.Idx → EReal) (a1 a2 : Cert.KernelIdeal.S64x1x256x256.Idx → EReal)
    (hpre : Cert.Pre_finite_inputs.fn (F := Ideal) a0 a1 a2 = fun _ => 1#1) :
    Cert.ReferenceIdeal.Term.refTerm (F := Ideal) a0 a1 a2 = Cert.KernelIdeal.Whole.G a0 a1 a2 := by
  obtain ⟨h0, h1, h2, hpos⟩ := Cert.Pre_finite_inputs.Decode.decode a0 a1 a2 hpre
  funext i
  obtain ⟨n, y, x, rfl⟩ : ∃ (n : Fin 64) (y x : Fin 256), i = ix4 n (0 : Fin 1) y x :=
    ⟨i 0, i 2, i 3, funext fun a => by
      match a with
      | ⟨0, _⟩ => rfl
      | ⟨1, _⟩ => exact Fin.ext (by have h1 : (i 1).val < 1 := (i 1).isLt; show (i 1).val = 0; omega)
      | ⟨2, _⟩ => rfl
      | ⟨3, _⟩ => rfl⟩
  rw [Cert.ReferenceIdeal.Term.refTerm_apply]
  show _ = Kpix (fun k yy xx => a0 (ix4 n k yy xx)) (fun yy xx => a1 (ix4 n (0 : Fin 1) yy xx))
    (fun yy xx => a2 (ix4 n (0 : Fin 1) yy xx)) y x
  rw [Kpix_eq_Rpix _ _ _ (fun k yy xx => h0 _) (fun yy xx => hpos n yy xx) (fun yy xx => h1 _) (fun yy xx => h2 _)]

/-- From memories that agree on the arguments and satisfy the precondition both programs run, the kernel's result
    array and the reference's result equal as extended reals, entry by entry. -/
theorem algebraic : Cert.algebraic_KernelIdeal_ReferenceIdeal := by
  intro m ρ m' ρ' hpre hagree
  refine ⟨fun c => Cert.KernelIdeal.Whole.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact ref_eq_kernel _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
